-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x10 .f32) (main_arg16 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x10 .f32 := Host.absf main_arg15
  let main_cst_24 : FVec F S_ .f32 := constant S_ .f32 0x7F800000#32
  let main_v65 : FVec F S128x10 .f32 := broadcastInDim S128x10 ![] bcast_S_S128x10 main_cst_24
  let main_v66 : IVec S128x10 1 := cmpf .olt main_v64 main_v65
  let main_c_25 : IVec S_ 1 := constantI S_ 1 1#1
  let main_v67 : IVec S_ 1 := (fun x v => Host.reduce IntOp.andi x v reducesTo_S128x10_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 118
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x10, .f32⟩
  | .hbm, ⟨16, _⟩ => ⟨S10, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000, .f32⟩
  | .hbm, ⟨49, _⟩ => ⟨S800000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x128, .f32⟩
  | .hbm, ⟨85, _⟩ => ⟨S800000x1, .f32⟩
  | .hbm, ⟨86, _⟩ => ⟨S800000x128, .f32⟩
  | .hbm, ⟨87, _⟩ => ⟨S800000x128, .f32⟩
  | .hbm, ⟨88, _⟩ => ⟨S_, .f32⟩
  | .hbm, ⟨89, _⟩ => ⟨S50000x128, .f32⟩
  | .hbm, ⟨90, _⟩ => ⟨S800000x1, .i32⟩
  | .hbm, ⟨91, _⟩ => ⟨S50000x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S_, .f32⟩
  | .hbm, ⟨99, _⟩ => ⟨S512x128, .f32⟩
  | .hbm, ⟨100, _⟩ => ⟨S50000x1, .i32⟩
  | .hbm, ⟨101, _⟩ => ⟨S512x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S512, .f32⟩
  | .hbm, ⟨106, _⟩ => ⟨S50000x1, .i32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x128, .f32⟩
  | .hbm, ⟨113, _⟩ => ⟨S512x128, .f32⟩
  | .hbm, ⟨114, _⟩ => ⟨S512x10, .f32⟩
  | .hbm, ⟨115, _⟩ => ⟨S1x10, .f32⟩
  | .hbm, ⟨116, _⟩ => ⟨S512x10, .f32⟩
  | .hbm, ⟨117, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_8 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v65) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v66) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v67) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x10, .f32⟩
  | 16 => ⟨S10, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .f32⟩
  | 96 => ⟨S800000, .f32⟩
  | 97 => ⟨S_, .f32⟩
  | 98 => ⟨S50000, .f32⟩
  | 99 => ⟨S800000x1, .i32⟩
  | 100 => ⟨S50000, .f32⟩
  | 101 => ⟨S_, .f32⟩
  | 102 => ⟨S50000, .f32⟩
  | 103 => ⟨S50000, .f32⟩
  | 104 => ⟨S50000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S800000x1, .f32⟩
  | 6 => ⟨S800000x128, .f32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S50000, .f32⟩
  | 13 => ⟨S50000x1, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S512x128, .f32⟩
  | 41 => ⟨S50000x1, .i32⟩
  | 42 => ⟨S512x128, .f32⟩
  | 43 => ⟨S_, .f32⟩
  | 44 => ⟨S50000, .f32⟩
  | 45 => ⟨S_, .f32⟩
  | 46 => ⟨S512, .f32⟩
  | 47 => ⟨S50000x1, .i32⟩
  | 48 => ⟨S512, .f32⟩
  | 49 => ⟨S_, .f32⟩
  | 50 => ⟨S512, .f32⟩
  | 51 => ⟨S512, .f32⟩
  | 52 => ⟨S512x1, .f32⟩
  | 53 => ⟨S512x128, .f32⟩
  | 54 => ⟨S512x128, .f32⟩
  | 55 => ⟨S512x10, .f32⟩
  | 56 => ⟨S1x10, .f32⟩
  | 57 => ⟨S512x10, .f32⟩
  | 58 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_cst : Ref sig .tc := ⟨.hbm, 91, rfl⟩
abbrev main_call0_v0 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_cst_10 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_12 : Ref sig .tc := ⟨.hbm, 105, rfl⟩
abbrev main_v72 : Ref sig .tc := ⟨.hbm, 106, rfl⟩
abbrev main_v73 : Ref sig .tc := ⟨.hbm, 107, rfl⟩
abbrev main_c_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_14 : Ref sig .tc := ⟨.hbm, 114, rfl⟩
abbrev main_v79 : Ref sig .tc := ⟨.hbm, 115, rfl⟩
abbrev main_v80 : Ref sig .tc := ⟨.hbm, 116, rfl⟩
abbrev main_c_15 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_19 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_call1_cst : Ref sig .tc := ⟨.hbm, 164, rfl⟩
abbrev main_call1_v0 : Ref sig .tc := ⟨.hbm, 165, rfl⟩
abbrev main_v123 : Ref sig .tc := ⟨.hbm, 166, rfl⟩
abbrev main_cst_20 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_21 : Ref sig .tc := ⟨.hbm, 171, rfl⟩
abbrev main_v127 : Ref sig .tc := ⟨.hbm, 172, rfl⟩
abbrev main_cst_22 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_23 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.ResultRun.lean ====
/-
  The idealized kernel program's run, with its result named.

  The program is four grid launches among stretches of host operations. Its frame run already tracks the contents of
  every unscoped buffer at each boundary between a stretch and a launch, as a fold from the launch memory: a stretch
  applies its operations in order, a launch replaces its output array by what its grid points wrote back and keeps every
  other buffer. The frame claim only reads the argument buffers out of the final fold; here the same run is read at the
  result buffer too, so that the value of the result is the final fold at that buffer.
-/
import proofs.«105856_j1056561955280_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    last stretch of host operations leaves in it (the fold `W8` read at the result), and the arguments are unchanged. -/
theorem run_result : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v83 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.ResultRun

end
-- ==== Proof.Stages.lean ====
/-
  The network as a composition of whole-array stages, in the reference program's own vocabulary.

  One graph-convolution layer is: project the node features by a weight matrix; for every edge take the projected row
  of its source node, scale it by deg(src)^(-1/2) · deg(dst)^(-1/2), and add it into the row of its target node; add
  the node's own projected row scaled by 1/deg; add the bias; normalise per feature with the stored mean and variance;
  clamp at zero. Two layers are followed by a per-graph mean of the node rows and a linear classifier.
  Here deg(v) is one plus the number of edges whose target is v, so deg ≥ 1 wherever it is read.

  Every stage below is literally the reference program's host operations for that step, so the reference's result is
  the composition by unfolding. The point of naming the stages is that the kernel program runs the SAME gathers,
  scatter-adds and pooling on the host, and differs only in how a projection and a normalise-and-clamp step are
  computed; those two are compared separately, and everything else is carried by congruence.
-/
import proofs.«105856_j1056561955280_1_alg».proof.Proof.Gen.ReferenceIdeal
import Idealize.ShloMosaic.PureOps.Ideal

noncomputable section

namespace Cert.Stages

open Cert.ReferenceIdeal Cert.ReferenceIdeal.Gen Idealize.ShloMosaic

variable {F : FTy → Type} [FloatOps F]

/-- Row 0 of the edge list: each edge's source node. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: each edge's target node. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A node number read python-style: a negative one counts from the end. -/
def wrap (r : (⟨S800000, .i32⟩ : BufTy).Contents (Elt F)) : (⟨S800000, .i32⟩ : BufTy).Contents (Elt F) :=
  select (cmpi .slt r (broadcastInDim S800000 ![] bcast_S_S800000 (constantI S_ 32 0#32)))
    (addi r (broadcastInDim S800000 ![] bcast_S_S800000 (constantI S_ 32 50000#32))) r

/-- deg^(-1/2) per node, deg = 1 + number of edges into the node. -/
def dis (e : (⟨S2x800000, .i32⟩ : BufTy).Contents (Elt F)) : (⟨S50000, .f32⟩ : BufTy).Contents (Elt F) :=
  Host.rsqrt (addf (Host.scatterAdd scatter_S50000_S800000x1_S800000_n_0_0_1
      (broadcastInDim S50000 ![] bcast_S_S50000 (constant S_ .f32 0x00000000#32))
      (broadcastInDim S800000x1 ![0] bcast_S800000_S800000x1_0 (dstRow e))
      (broadcastInDim S800000 ![] bcast_S_S800000 (constant S_ .f32 0x3F800000#32)))
    (broadcastInDim S50000 ![] bcast_S_S50000 (constant S_ .f32 0x3F800000#32)))

/-- The weight of an edge: deg(src)^(-1/2) · deg(dst)^(-1/2). -/
def norm (e : (⟨S2x800000, .i32⟩ : BufTy).Contents (Elt F)) : (⟨S800000, .f32⟩ : BufTy).Contents (Elt F) :=
  mulf (Host.gather gather_S50000_S800000x1_S800000_n_0_n_n_0_1_1 (dis e) (broadcastInDim S800000x1 ![0] bcast_S800000_S800000x1_0 (wrap (srcRow e))))
    (Host.gather gather_S50000_S800000x1_S800000_n_0_n_n_0_1_1 (dis e) (broadcastInDim S800000x1 ![0] bcast_S800000_S800000x1_0 (wrap (dstRow e))))

/-- Neighbour aggregation: the weighted source rows summed into their target rows. -/
def agg (h : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstRow e))
    (mulf (Host.gather gather_S50000x128_S800000x1_S800000x128_1_0_n_n_0_1_1128 h (broadcastInDim S800000x1 ![0] bcast_S800000_S800000x1_0 (wrap (srcRow e))))
      (broadcastInDim S800000x128 ![0, 1] bcast_S800000x1_S800000x128_0_1 (broadcastInDim S800000x1 ![0] bcast_S800000_S800000x1_0 (norm e))))

/-- A per-feature vector repeated down the node axis. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- Self-loop term, bias, per-feature normalisation and clamp at zero:
    max(γ · ((a + h · d² + b) − μ) · (σ² + ε)^(-1/2) + β, 0). -/
def combine (a h : (⟨S50000x128, .f32⟩ : BufTy).Contents (Elt F)) (d : (⟨S50000, .f32⟩ : BufTy).Contents (Elt F))
    (b g be mu va : (⟨S128, .f32⟩ : BufTy).Contents (Elt F)) : (⟨S50000x128, .f32⟩ : BufTy).Contents (Elt F) :=
  maximumf (addf (mulf (mulf (rows g) (subf (addf (addf a (mulf h
      (broadcastInDim S50000x128 ![0, 1] bcast_S50000x1_S50000x128_0_1 (broadcastInDim S50000x1 ![0] bcast_S50000_S50000x1_0 (mulf d d))))) (rows b)) (rows mu)))
      (rows (Host.rsqrt (addf va (broadcastInDim S128 ![] bcast_S_S128 (constant S_ .f32 0x3727C5AC#32)))))) (rows be))
    (broadcastInDim S50000x128 ![] bcast_S_S50000x128 (constant S_ .f32 0x00000000#32))

/-- The dense projection of the node features. -/
def proj (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- One layer. -/
def layer (x : (⟨S50000x128, .f32⟩ : BufTy).Contents (Elt F)) (w : (⟨S128x128, .f32⟩ : BufTy).Contents (Elt F))
    (e : (⟨S2x800000, .i32⟩ : BufTy).Contents (Elt F)) (b g be mu va : (⟨S128, .f32⟩ : BufTy).Contents (Elt F)) :
    (⟨S50000x128, .f32⟩ : BufTy).Contents (Elt F) :=
  combine (agg (proj x w) e) (proj x w) (dis e) b g be mu va

/-- Mean of the node rows per graph (an empty graph divides by one), then the linear classifier. -/
def pool (h : (⟨S50000x128, .f32⟩ : BufTy).Contents (Elt F)) (gr : (⟨S50000, .i32⟩ : BufTy).Contents (Elt F))
    (wl : (⟨S128x10, .f32⟩ : BufTy).Contents (Elt F)) (bl : (⟨S10, .f32⟩ : BufTy).Contents (Elt F)) :
    (⟨S512x10, .f32⟩ : BufTy).Contents (Elt F) :=
  addf (Host.dotGeneral dot_S512x128_S128x10_S512x10_1_0_0_1_n_n none
      (Host.divf (Host.scatterAdd scatter_S512x128_S50000x1_S50000x128_1_0_0_1
          (broadcastInDim S512x128 ![] bcast_S_S512x128 (constant S_ .f32 0x00000000#32))
          (broadcastInDim S50000x1 ![0] bcast_S50000_S50000x1_0 gr) h)
        (broadcastInDim S512x128 ![0, 1] bcast_S512x1_S512x128_0_1 (broadcastInDim S512x1 ![0] bcast_S512_S512x1_0
          (maximumf (Host.scatterAdd scatter_S512_S50000x1_S50000_n_0_0_1
              (broadcastInDim S512 ![] bcast_S_S512 (constant S_ .f32 0x00000000#32))
              (broadcastInDim S50000x1 ![0] bcast_S50000_S50000x1_0 gr)
              (broadcastInDim S50000 ![] bcast_S_S50000 (constant S_ .f32 0x3F800000#32)))
            (broadcastInDim S512 ![] bcast_S_S512 (constant S_ .f32 0x3F800000#32)))))) wl)
    (broadcastInDim S512x10 ![0, 1] bcast_S1x10_S512x10_0_1 (broadcastInDim S1x10 ![1] bcast_S10_S1x10_1 bl))

/-- The whole network. -/
def net (x : (⟨S50000x128, .f32⟩ : BufTy).Contents (Elt F)) (e : (⟨S2x800000, .i32⟩ : BufTy).Contents (Elt F))
    (gr : (⟨S50000, .i32⟩ : BufTy).Contents (Elt F))
    (w1 : (⟨S128x128, .f32⟩ : BufTy).Contents (Elt F)) (b1 g1 be1 mu1 va1 : (⟨S128, .f32⟩ : BufTy).Contents (Elt F))
    (w2 : (⟨S128x128, .f32⟩ : BufTy).Contents (Elt F)) (b2 g2 be2 mu2 va2 : (⟨S128, .f32⟩ : BufTy).Contents (Elt F))
    (wl : (⟨S128x10, .f32⟩ : BufTy).Contents (Elt F)) (bl : (⟨S10, .f32⟩ : BufTy).Contents (Elt F)) :
    (⟨S512x10, .f32⟩ : BufTy).Contents (Elt F) :=
  pool (layer (layer x w1 e b1 g1 be1 mu1 va1) w2 e b2 g2 be2 mu2 va2) gr wl bl

end Cert.Stages

end
-- ==== Proof.RefNet.lean ====
/-
  The reference program's result is the network of Stages.lean applied to its arguments: the run's composed term is
  those stages' host operations in the same order, so the two are the same term once the stage names are opened.
-/
import proofs.«105856_j1056561955280_1_alg».proof.Proof.Stages
import proofs.«105856_j1056561955280_1_alg».proof.Proof.Gen.ReferenceIdeal.Run

noncomputable section

namespace Cert.RefNet

open Cert.ReferenceIdeal Idealize.ShloMosaic Idealize.ShloMosaic.TcCoe Idealize.SL.Sem

variable {F : FTy → Type} [FloatOps F]

set_option maxRecDepth 16384 in
theorem result_eq (m : (ℓ : Loc nD τ sig) → Buf (Elt F) ℓ) (c : Dev nD) :
    Cert.ReferenceIdeal.Value.res_main_v139 m c = Cert.Stages.net
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) := by
  unfold Cert.ReferenceIdeal.Value.res_main_v139 Cert.Stages.net Cert.Stages.pool Cert.Stages.layer Cert.Stages.combine Cert.Stages.agg
    Cert.Stages.proj Cert.Stages.rows Cert.Stages.norm Cert.Stages.dis Cert.Stages.wrap Cert.Stages.srcRow Cert.Stages.dstRow
  rfl

end Cert.RefNet

end
-- ==== Proof.NormClamp.lean ====
/-
  One entry of a layer's output after aggregation, and the whole array of such entries.

  With a the aggregated neighbour sum at (node, feature), h the node's own projected feature, s the node's self-loop
  scale 1/deg, and per feature the bias b, the scale γ, the shift β, the stored mean μ and variance σ², the entry is
      max( γ · ((a + h · s + b) − μ) · (σ² + ε)^(-1/2) + β , 0 )
  with ε the single-precision word nearest 1e-5, read as its exact binary value. The grouping is the one both programs
  use, so no algebraic law is needed between them: the extended reals' + and · are applied in the same order.

  Also here: reading the three layouts involved at an index — a column [N,1] repeated across the features, a row
  [1,128] repeated down the nodes, a length-N vector recast as a column, a length-128 vector recast as a row.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.NormClamp

open Idealize.ShloMosaic Idealize.ShloMosaic.ValueIdx

/-- One entry: max(γ · ((a + h · s + b) − μ) · (σ² + ε)^(-1/2) + β, 0). -/
def entry (a h s b g be mu va : EReal) : EReal :=
  max (g * ((a + h * s + b) - mu) * Ideal.rsqrt (va + Ideal.ofBits .f32 0x3727C5AC#32) + be) (Ideal.ofBits .f32 0x00000000#32)

/-- The array of entries over N nodes: the node's scale is read from a column, the per-feature vectors from rows. -/
def whole {N : Nat} (a h : (⟨2, ![N, 128]⟩ : Shape).Idx → EReal) (s : (⟨2, ![N, 1]⟩ : Shape).Idx → EReal)
    (b g be mu va : (⟨2, ![1, 128]⟩ : Shape).Idx → EReal) : (⟨2, ![N, 128]⟩ : Shape).Idx → EReal :=
  fun i => entry (a i) (h i) (s (ix2 (n0 := N) (n1 := 1) (i 0) 0)) (b (ix2 (n0 := 1) (n1 := 128) 0 (i 1)))
    (g (ix2 (n0 := 1) (n1 := 128) 0 (i 1))) (be (ix2 (n0 := 1) (n1 := 128) 0 (i 1))) (mu (ix2 (n0 := 1) (n1 := 128) 0 (i 1)))
    (va (ix2 (n0 := 1) (n1 := 128) 0 (i 1)))

theorem whole_apply {N : Nat} (a h : (⟨2, ![N, 128]⟩ : Shape).Idx → EReal) (s : (⟨2, ![N, 1]⟩ : Shape).Idx → EReal)
    (b g be mu va : (⟨2, ![1, 128]⟩ : Shape).Idx → EReal) (p : Fin N) (q : Fin 128) :
    whole a h s b g be mu va (ix2 p q) = entry (a (ix2 p q)) (h (ix2 p q)) (s (ix2 p 0)) (b (ix2 0 q)) (g (ix2 0 q)) (be (ix2 0 q))
      (mu (ix2 0 q)) (va (ix2 0 q)) := rfl

variable {α : Type}

/-- A column [a,1] repeated across b columns reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector recast as a column [a,1] reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector placed along axis 0 of a column [a,1] (a host broadcast along a new unit axis) reads entry i at (i, 0). -/
theorem bcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column [a,1] spread over [a,b] by a host broadcast reads the column's entry p at (p, c). -/
theorem bcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector placed along axis 1 of a row [1,b] reads entry c at (0, c). -/
theorem bcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A row [1,b] spread over [a,b] by a host broadcast reads the row's entry c at (p, c). -/
theorem bcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply ![0, 1] h x (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over any shape by a host broadcast reads the scalar everywhere. -/
theorem bcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

theorem rsqrt_apply {s : Shape} {φ : FTy} (x : FVec Ideal s φ) (i : s.Idx) : rsqrt x i = Ideal.rsqrt (x i) := rfl
theorem hostRsqrt_apply {s : Shape} {φ : FTy} (x : FVec Ideal s φ) (i : s.Idx) : Host.rsqrt x i = Ideal.rsqrt (x i) := rfl

end Cert.NormClamp

end
-- ==== Proof.CombineEq.lean ====
/-
  The reference's normalise-and-clamp step is the array of NormClamp.lean's entries.

  The reference spreads each per-feature vector down the 50000 nodes, and the squared deg^(-1/2) across the 128 features,
  with host broadcasts; the kernel program instead hands its launch the squared vector recast as a column and each
  per-feature vector recast as a row. Read at (node p, feature q) both give the same eight numbers to the same
  arithmetic, in the same grouping, so the two arrays are equal entry by entry.
-/
import proofs.«105856_j1056561955280_1_alg».proof.Proof.Stages
import proofs.«105856_j1056561955280_1_alg».proof.Proof.NormClamp

noncomputable section

namespace Cert.CombineEq

open Cert.ReferenceIdeal Cert.ReferenceIdeal.Gen Idealize.ShloMosaic Idealize.ShloMosaic.ValueIdx

/-- A per-feature vector repeated down the nodes reads, at (p, q), its entry q. -/
theorem rows_apply (v : (⟨S128, .f32⟩ : BufTy).Contents (Elt Ideal)) (p : Fin 50000) (q : Fin 128) :
    Cert.Stages.rows v (ix2 p q) = v (ix1 q) := by
  unfold Cert.Stages.rows
  exact (Cert.NormClamp.bcastInDim_1b_ab_apply _ _ p q).trans (Cert.NormClamp.bcastInDim_b_1b_apply _ _ 0 q)

/-- A per-node vector repeated across the features reads, at (p, q), its entry p. -/
theorem cols_apply (v : FVec Ideal S50000 .f32) (p : Fin 50000) (q : Fin 128) :
    broadcastInDim S50000x128 ![0, 1] bcast_S50000x1_S50000x128_0_1 (broadcastInDim S50000x1 ![0] bcast_S50000_S50000x1_0 v) (ix2 p q)
      = v (ix1 p) :=
  (Cert.NormClamp.bcastInDim_a1_ab_apply _ _ p q).trans (Cert.NormClamp.bcastInDim_a_a1_apply _ _ p 0)

/-- The zero splat over the node array reads zero's word everywhere. -/
theorem zero_apply (p : Fin 50000) (q : Fin 128) :
    broadcastInDim S50000x128 ![] bcast_S_S50000x128 (constant (F := Ideal) S_ .f32 0x00000000#32) (ix2 p q) = Ideal.ofBits .f32 0x00000000#32 :=
  Cert.NormClamp.bcastInDim_scalar_apply _ _ _

/-- The ε splat over the features reads ε's word everywhere. -/
theorem eps_apply (q : Fin 128) :
    broadcastInDim S128 ![] bcast_S_S128 (constant (F := Ideal) S_ .f32 0x3727C5AC#32) (ix1 q) = Ideal.ofBits .f32 0x3727C5AC#32 :=
  Cert.NormClamp.bcastInDim_scalar_apply _ _ _

theorem combine_eq (a h : (⟨S50000x128, .f32⟩ : BufTy).Contents (Elt Ideal)) (d : (⟨S50000, .f32⟩ : BufTy).Contents (Elt Ideal))
    (b g be mu va : (⟨S128, .f32⟩ : BufTy).Contents (Elt Ideal))
    (hc : (⟨1, ![50000]⟩ : Shape).ShapeCasts ⟨2, ![50000, 1]⟩) (hr : (⟨1, ![128]⟩ : Shape).ShapeCasts ⟨2, ![1, 128]⟩) :
    Cert.Stages.combine a h d b g be mu va
      = Cert.NormClamp.whole (N := 50000) a h (shapeCast ⟨2, ![50000, 1]⟩ (show FVec Ideal S50000 .f32 from mulf d d) hc) (shapeCast ⟨2, ![1, 128]⟩ b hr)
          (shapeCast ⟨2, ![1, 128]⟩ g hr) (shapeCast ⟨2, ![1, 128]⟩ be hr) (shapeCast ⟨2, ![1, 128]⟩ mu hr) (shapeCast ⟨2, ![1, 128]⟩ va hr) := by
  funext i
  obtain ⟨p, q, rfl⟩ : ∃ (p : Fin 50000) (q : Fin 128), i = ix2 p q := ⟨i 0, i 1, eq_ix2 i⟩
  rw [Cert.NormClamp.whole_apply]
  unfold Cert.Stages.combine
  simp only [maximumf_apply, addf_apply, mulf_apply, subf_apply, rows_apply,
    Cert.NormClamp.hostRsqrt_apply, shapeCast_a_1a_apply, Cert.NormClamp.shapeCast_a_a1_apply]
  rw [cols_apply (mulf d d) p q, eps_apply q, zero_apply p q]
  rfl

end Cert.CombineEq

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.Projection.lean ====
/-
  A dense projection of N rows of 128 features by a 128 x 128 weight matrix, entry by entry:
      (x · w)(r, c) = Σ_{k < 128} x(r, k) · w(k, c)
  on the extended reals. A host dot_general that contracts the left operand's second axis with the right operand's
  first is this array, whatever its precision word; and a row of the product depends only on the same row of x, which
  is what lets a grid of row blocks assemble the whole product.
-/
import Idealize.ShloMosaic.PureOps.Ideal.Laws
import Idealize.ShloMosaic.Lib.ValueIdx
import proofs.«105856_j1056561955280_1_alg».proof.Proof.LibPlainDot

noncomputable section

open scoped BigOperators

namespace Cert.Projection

open Idealize.ShloMosaic Idealize.ShloMosaic.ValueIdx

/-- The product array: entry (r, c) is the sum over k of x(r, k) · w(k, c). -/
def rowsTimes {N : Nat} (x : (⟨2, ![N, 128]⟩ : Shape).Idx → EReal) (w : (⟨2, ![128, 128]⟩ : Shape).Idx → EReal) :
    (⟨2, ![N, 128]⟩ : Shape).Idx → EReal :=
  fun i => ∑ k : Fin 128, x (ix2 (n0 := N) (n1 := 128) (i 0) k) * w (ix2 (n0 := 128) (n1 := 128) k (i 1))

/-- A host dot_general with plain dimension numbers (contract [1] with [0], no batch) is the product array. -/
theorem dotGeneral_eq {N : Nat} {φ₁ φ₂ : FTy} (d : DotDims ⟨2, ![N, 128]⟩ ⟨2, ![128, 128]⟩ ⟨2, ![N, 128]⟩)
    (hr : d.contr.rank = 1) (hs : d.contr.size ⟨0, by omega⟩ = 128)
    (hl0 : ∀ (i : (⟨2, ![N, 128]⟩ : Shape).Idx) (q : d.contr.Idx), (d.lhsIdx i q 0).val = (i 0).val)
    (hl1 : ∀ (i : (⟨2, ![N, 128]⟩ : Shape).Idx) (q : d.contr.Idx), (d.lhsIdx i q 1).val = (q ⟨0, by omega⟩).val)
    (hr0 : ∀ (i : (⟨2, ![N, 128]⟩ : Shape).Idx) (q : d.contr.Idx), (d.rhsIdx i q 0).val = (q ⟨0, by omega⟩).val)
    (hr1 : ∀ (i : (⟨2, ![N, 128]⟩ : Shape).Idx) (q : d.contr.Idx), (d.rhsIdx i q 1).val = (i 1).val)
    (prec : Option ContractPrecision) (l : FVec Ideal ⟨2, ![N, 128]⟩ φ₁) (r : FVec Ideal ⟨2, ![128, 128]⟩ φ₂) :
    Host.dotGeneral d prec l r = rowsTimes l r := by
  funext i
  rw [eq_ix2 i]
  exact Cert.Lib.PlainDot.dotGeneral_apply_ix2 d hr hs hl0 hl1 hr0 hr1 prec l r (i 0) (i 1)

end Cert.Projection

end
-- ==== Proof.ProjEq.lean ====
/-
  The reference's projection step is the product array of Projection.lean: its dot_general contracts the feature axis
  of the node array with the first axis of the weights.
-/
import proofs.«105856_j1056561955280_1_alg».proof.Proof.Stages
import proofs.«105856_j1056561955280_1_alg».proof.Proof.Projection
import proofs.«105856_j1056561955280_1_alg».proof.Proof.Gen.ReferenceIdeal.Read

noncomputable section

namespace Cert.ProjEq

open Cert.ReferenceIdeal Idealize.ShloMosaic Idealize.ShloMosaic.ValueIdx

theorem proj_eq (x : (⟨S50000x128, .f32⟩ : BufTy).Contents (Elt Ideal)) (w : (⟨S128x128, .f32⟩ : BufTy).Contents (Elt Ideal)) :
    Cert.Stages.proj x w = Cert.Projection.rowsTimes (N := 50000) x w := by
  unfold Cert.Stages.proj
  exact Cert.Projection.dotGeneral_eq dot_S50000x128_S128x128_S50000x128_1_0_0_1_n_n rfl rfl
    Cert.ReferenceIdeal.Read.lhs_main_v4_0 Cert.ReferenceIdeal.Read.lhs_main_v4_1
    Cert.ReferenceIdeal.Read.rhs_main_v4_0 Cert.ReferenceIdeal.Read.rhs_main_v4_1 none x w

end Cert.ProjEq

end
-- ==== Proof.Bodies.lean ====
/-
  What one grid point of each launch computes, as a function of the blocks it loads.

  A projection launch loads a block of 5000 node rows and the whole weight matrix, narrows both to bf16 and multiplies
  them on the matrix unit into a zero accumulator; on the extended reals the narrowing is the identity and the zero
  adds nothing, so the stored block is the 5000-row product array of Projection.lean.
  A normalise-and-clamp launch loads 5000-row blocks of the aggregated sums, of the projected features and of the
  self-loop scales (a column), and the five per-feature rows; what it stores is the array of NormClamp.lean's entries.
-/
import proofs.«105856_j1056561955280_1_alg».proof.Proof.Gen.KernelIdeal
import proofs.«105856_j1056561955280_1_alg».proof.Proof.Gen.KernelIdeal.Skeleton
import proofs.«105856_j1056561955280_1_alg».proof.Proof.NormClamp
import proofs.«105856_j1056561955280_1_alg».proof.Proof.Projection

noncomputable section

namespace Cert.KernelIdeal.Bodies

open Cert.KernelIdeal Cert.KernelIdeal.Gen Idealize.ShloMosaic Idealize.ShloMosaic.ValueIdx

/-! ## The matrix unit's dimension numbers: contract the block's feature axis with the weights' first axis -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The projection bodies -/

/-- First layer's projection: the stored block is the product of the loaded row block with the weights. -/
theorem proj_body0 (x0 : Vec Ideal S5000x128 .f32) (x1 : Vec Ideal S128x128 .f32) :
    k0_pay1 x0 x1 = Cert.Projection.rowsTimes (N := 5000) x0 x1 := by
  unfold k0_pay1
  exact (Cert.Lib.PlainDot.matmul_truncf_zero_eq_dotGeneral dot_S5000x128_S128x128_S5000x128_1_0_0_1_n_n none x0 x1 bitsLt_bf16_f32 bitsLt_bf16_f32).trans
    (Cert.Projection.dotGeneral_eq dot_S5000x128_S128x128_S5000x128_1_0_0_1_n_n rfl rfl lhs0 lhs1 rhs0 rhs1 none x0 x1)

/-- Second layer's projection: the same, after a recast of the loaded block to its own shape. -/
theorem proj_body2 (x0 : Vec Ideal S5000x128 .f32) (x1 : Vec Ideal S128x128 .f32) :
    k2_pay1 x0 x1 = Cert.Projection.rowsTimes (N := 5000) x0 x1 := by
  unfold k2_pay1
  rw [shapeCast_self]
  exact (Cert.Lib.PlainDot.matmul_truncf_zero_eq_dotGeneral dot_S5000x128_S128x128_S5000x128_1_0_0_1_n_n none x0 x1 bitsLt_bf16_f32 bitsLt_bf16_f32).trans
    (Cert.Projection.dotGeneral_eq dot_S5000x128_S128x128_S5000x128_1_0_0_1_n_n rfl rfl lhs0 lhs1 rhs0 rhs1 none x0 x1)

/-! ## The normalise-and-clamp bodies -/

/-- First layer: the stored block is the array of entries over the loaded blocks. -/
theorem comb_body1 (x0 x1 : Vec Ideal S5000x128 .f32) (x2 : Vec Ideal S5000x1 .f32) (x3 x4 x5 x6 x7 : Vec Ideal S1x128 .f32) :
    k1_pay1 x0 x1 x2 x3 x4 x5 x6 x7 = Cert.NormClamp.whole (N := 5000) x0 x1 x2 x3 x4 x5 x6 x7 := by
  funext j
  obtain ⟨p, q, rfl⟩ : ∃ (p : Fin 5000) (q : Fin 128), j = ix2 p q := ⟨j 0, j 1, eq_ix2 j⟩
  rw [Cert.NormClamp.whole_apply]
  unfold k1_pay1
  simp only [shapeCast_self, maximumf_apply, addf_apply, mulf_apply, subf_apply, broadcast_apply, Cert.NormClamp.rsqrt_apply,
    broadcastTo_1b_ab_apply, Cert.NormClamp.broadcastTo_a1_ab_apply]
  rfl

/-- Second layer: the same body. -/
theorem comb_body3 (x0 x1 : Vec Ideal S5000x128 .f32) (x2 : Vec Ideal S5000x1 .f32) (x3 x4 x5 x6 x7 : Vec Ideal S1x128 .f32) :
    k3_pay1 x0 x1 x2 x3 x4 x5 x6 x7 = Cert.NormClamp.whole (N := 5000) x0 x1 x2 x3 x4 x5 x6 x7 := by
  funext j
  obtain ⟨p, q, rfl⟩ : ∃ (p : Fin 5000) (q : Fin 128), j = ix2 p q := ⟨j 0, j 1, eq_ix2 j⟩
  rw [Cert.NormClamp.whole_apply]
  unfold k3_pay1
  simp only [shapeCast_self, maximumf_apply, addf_apply, mulf_apply, subf_apply, broadcast_apply, Cert.NormClamp.rsqrt_apply,
    broadcastTo_1b_ab_apply, Cert.NormClamp.broadcastTo_a1_ab_apply]
  rfl

end Cert.KernelIdeal.Bodies

end
-- ==== Proof.ProjLaunch0.lean ====
/-
  The first layer's projection launch, whole.

  The grid has ten points; point t loads rows 5000·t … 5000·t + 4999 of the node features and the whole weight matrix,
  and writes back the same rows of the output. Each written block is the product of the loaded rows with the weights
  (Bodies.lean), and a row of the product depends only on that row of the features, so block t of the output is block t
  of the full product array; the ten blocks tile the 50000 rows, so after the launch the output array IS the full
  product of the feature array with the weight matrix, both read as the launch finds them.
-/
import proofs.«105856_j1056561955280_1_alg».proof.Proof.Gen.KernelIdeal.Frame
import proofs.«105856_j1056561955280_1_alg».proof.Proof.Bodies
import Idealize.ShloMosaic.Lib.Pipeline.Value

set_option maxRecDepth 16384

noncomputable section

open scoped BigOperators

namespace Cert.KernelIdeal.ProjLaunch0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: features and output move down the rows with the point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is block t of the full product. -/
theorem flushed_eq (c : Dev nD) (t : Fin cfg0.N) :
    (dat0 V c).flushed 2 t = ((cfg0.win 2).blk t).view.read (Elt Ideal)
      (Cert.Projection.rowsTimes (N := 50000) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Bodies.proj_body0]
  obtain ⟨e0, e1, e2, e3, e4, e5, e6⟩ := idx_facts t
  funext j
  show Cert.Projection.rowsTimes (N := 5000) (iblk0 V c 0 t) (iblk0 V c 1 t) j
    = Cert.Projection.rowsTimes (N := 50000) (V c main_arg0) (V c main_arg3) (((cfg0.win 2).blk t).view.emb j)
  unfold Cert.Projection.rowsTimes
  refine Finset.sum_congr rfl fun k _ => ?_
  have hj0 : (j 0).val < 5000 := (j 0).isLt
  have hj1 : (j 1).val < 128 := (j 1).isLt
  have h0 : iblk0 V c 0 t (ix2 (n0 := 5000) (n1 := 128) (j 0) k) = V c main_arg0 (ix2 (n0 := 50000) (n1 := 128) ((((cfg0.win 2).blk t).view.emb j) 0) k) := by
    show V c main_arg0 (((cfg0.win 0).blk t).view.emb (ix2 (n0 := 5000) (n1 := 128) (j 0) k)) = _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (ix2 (n0 := 128) (n1 := 128) k (j 1)) = V c main_arg3 (ix2 (n0 := 128) (n1 := 128) k ((((cfg0.win 2).blk t).view.emb j) 1)) := by
    show V c main_arg3 (((cfg0.win 1).blk t).view.emb (ix2 (n0 := 128) (n1 := 128) k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-- An index of the output array lies in point t's block iff each coordinate lies in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every row is in the block of the point numbered by the row divided by 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, e4, e5, -⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array is the full product. -/
theorem final (c : Dev nD) :
    (dat0 V c).arrAt 2 cfg0.N = Cert.Projection.rowsTimes (N := 50000) (V c main_arg0) (V c main_arg3) :=
  (dat0 V c).arrAt_eq_of_cover 2 _ (fun t _ => flushed_eq V c t) cover

end Cert.KernelIdeal.ProjLaunch0

end
-- ==== Proof.ProjLaunch2.lean ====
/-
  The second layer's projection launch, whole.

  The grid has ten points; point t loads rows 5000·t … 5000·t + 4999 of the node features and the whole weight matrix,
  and writes back the same rows of the output. Each written block is the product of the loaded rows with the weights
  (Bodies.lean), and a row of the product depends only on that row of the features, so block t of the output is block t
  of the full product array; the ten blocks tile the 50000 rows, so after the launch the output array IS the full
  product of the feature array with the weight matrix, both read as the launch finds them.
-/
import proofs.«105856_j1056561955280_1_alg».proof.Proof.Gen.KernelIdeal.Frame
import proofs.«105856_j1056561955280_1_alg».proof.Proof.Bodies
import Idealize.ShloMosaic.Lib.Pipeline.Value

set_option maxRecDepth 16384

noncomputable section

open scoped BigOperators

namespace Cert.KernelIdeal.ProjLaunch2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: features and output move down the rows with the point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point t writes back is block t of the full product. -/
theorem flushed_eq (c : Dev nD) (t : Fin cfg2.N) :
    (dat2 V c).flushed 2 t = ((cfg2.win 2).blk t).view.read (Elt Ideal)
      (Cert.Projection.rowsTimes (N := 50000) (V c main_v47) (V c main_arg9)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [Bodies.proj_body2]
  obtain ⟨e0, e1, e2, e3, e4, e5, e6⟩ := idx_facts t
  funext j
  show Cert.Projection.rowsTimes (N := 5000) (iblk2 V c 0 t) (iblk2 V c 1 t) j
    = Cert.Projection.rowsTimes (N := 50000) (V c main_v47) (V c main_arg9) (((cfg2.win 2).blk t).view.emb j)
  unfold Cert.Projection.rowsTimes
  refine Finset.sum_congr rfl fun k _ => ?_
  have hj0 : (j 0).val < 5000 := (j 0).isLt
  have hj1 : (j 1).val < 128 := (j 1).isLt
  have h0 : iblk2 V c 0 t (ix2 (n0 := 5000) (n1 := 128) (j 0) k) = V c main_v47 (ix2 (n0 := 50000) (n1 := 128) ((((cfg2.win 2).blk t).view.emb j) 0) k) := by
    show V c main_v47 (((cfg2.win 0).blk t).view.emb (ix2 (n0 := 5000) (n1 := 128) (j 0) k)) = _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (ix2 (n0 := 128) (n1 := 128) k (j 1)) = V c main_arg9 (ix2 (n0 := 128) (n1 := 128) k ((((cfg2.win 2).blk t).view.emb j) 1)) := by
    show V c main_arg9 (((cfg2.win 1).blk t).view.emb (ix2 (n0 := 128) (n1 := 128) k (j 1))) = _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  exact congrArg₂ (fun a b : EReal => a * b) h0 h1

/-- An index of the output array lies in point t's block iff each coordinate lies in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every row is in the block of the point numbered by the row divided by 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [show cfg2.N = 10 from N_2]; omega⟩, rfl⟩
  obtain ⟨-, -, -, -, e4, e5, -⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the output array is the full product. -/
theorem final (c : Dev nD) :
    (dat2 V c).arrAt 2 cfg2.N = Cert.Projection.rowsTimes (N := 50000) (V c main_v47) (V c main_arg9) :=
  (dat2 V c).arrAt_eq_of_cover 2 _ (fun t _ => flushed_eq V c t) cover

end Cert.KernelIdeal.ProjLaunch2

end
-- ==== Proof.CombLaunch1.lean ====
/-
  The first layer's normalise-and-clamp launch, whole.

  The grid has ten points; point t loads rows 5000·t … 5000·t + 4999 of the aggregated sums, of the projected features
  and of the column of self-loop scales, and the five per-feature rows whole, and writes back the same rows of the
  output. An entry of the written block depends on the same entry of the first two arrays, on the scale of its node and
  on the per-feature values of its feature (Bodies.lean), so block t of the output is block t of the whole array of
  entries; the ten blocks tile the 50000 rows, so after the launch the output array is that whole array, every operand
  read as the launch finds it.
-/
import proofs.«105856_j1056561955280_1_alg».proof.Proof.Gen.KernelIdeal.Frame
import proofs.«105856_j1056561955280_1_alg».proof.Proof.Bodies
import Idealize.ShloMosaic.Lib.Pipeline.Value

set_option maxRecDepth 16384

noncomputable section

namespace Cert.KernelIdeal.CombLaunch1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three node-indexed operands and the output move down the rows with the
    point, the five per-feature rows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ t.val < 10 :=
  (by decide +kernel : ∀ t : Fin grid1.N, _)

set_option maxHeartbeats 4000000 in
/-- What point t writes back is block t of the whole array of entries. -/
theorem flushed_eq (c : Dev nD) (t : Fin cfg1.N) :
    (dat1 V c).flushed 8 t = ((cfg1.win 8).blk t).view.read (Elt Ideal)
      (Cert.NormClamp.whole (N := 50000) (V c main_v41) (V c main_v28) (V c main_v27) (V c main_v42) (V c main_v43) (V c main_v44) (V c main_v45) (V c main_v46)) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S1x128) hz]
  rw [Bodies.comb_body1]
  obtain ⟨a0, b0, a1, b1, a2, b2, a3, b3, a4, b4, a5, b5, a6, b6, a7, b7, a8, b8, lt⟩ := idx_facts t
  funext j
  have hj0 : (j 0).val < 5000 := (j 0).isLt
  have hj1 : (j 1).val < 128 := (j 1).isLt
  show Cert.NormClamp.entry (iblk1 V c 0 t j) (iblk1 V c 1 t j) (iblk1 V c 2 t (ix2 (n0 := 5000) (n1 := 1) (j 0) 0))
      (iblk1 V c 3 t (ix2 (n0 := 1) (n1 := 128) 0 (j 1))) (iblk1 V c 4 t (ix2 (n0 := 1) (n1 := 128) 0 (j 1)))
      (iblk1 V c 5 t (ix2 (n0 := 1) (n1 := 128) 0 (j 1))) (iblk1 V c 6 t (ix2 (n0 := 1) (n1 := 128) 0 (j 1)))
      (iblk1 V c 7 t (ix2 (n0 := 1) (n1 := 128) 0 (j 1)))
    = Cert.NormClamp.entry (V c main_v41 (((cfg1.win 8).blk t).view.emb j)) (V c main_v28 (((cfg1.win 8).blk t).view.emb j))
      (V c main_v27 (ix2 (n0 := 50000) (n1 := 1) ((((cfg1.win 8).blk t).view.emb j) 0) 0))
      (V c main_v42 (ix2 (n0 := 1) (n1 := 128) 0 ((((cfg1.win 8).blk t).view.emb j) 1)))
      (V c main_v43 (ix2 (n0 := 1) (n1 := 128) 0 ((((cfg1.win 8).blk t).view.emb j) 1)))
      (V c main_v44 (ix2 (n0 := 1) (n1 := 128) 0 ((((cfg1.win 8).blk t).view.emb j) 1)))
      (V c main_v45 (ix2 (n0 := 1) (n1 := 128) 0 ((((cfg1.win 8).blk t).view.emb j) 1)))
      (V c main_v46 (ix2 (n0 := 1) (n1 := 128) 0 ((((cfg1.win 8).blk t).view.emb j) 1)))
  have h0 : iblk1 V c 0 t j = V c main_v41 (((cfg1.win 8).blk t).view.emb j) := by
    show V c main_v41 (((cfg1.win 0).blk t).view.emb j) = _
    refine congrArg _ (funext fun a => Fin.ext ?_)
    match a with
    | ⟨0, _⟩ => show win1_0.index t (0 : Fin 2) * 5000 + 1 * (j 0).val = win1_8.index t (0 : Fin 2) * 5000 + 1 * (j 0).val; omega
    | ⟨1, _⟩ => show win1_0.index t (1 : Fin 2) * 128 + 1 * (j 1).val = win1_8.index t (1 : Fin 2) * 128 + 1 * (j 1).val; omega
  have h1 : iblk1 V c 1 t j = V c main_v28 (((cfg1.win 8).blk t).view.emb j) := by
    show V c main_v28 (((cfg1.win 1).blk t).view.emb j) = _
    refine congrArg _ (funext fun a => Fin.ext ?_)
    match a with
    | ⟨0, _⟩ => show win1_1.index t (0 : Fin 2) * 5000 + 1 * (j 0).val = win1_8.index t (0 : Fin 2) * 5000 + 1 * (j 0).val; omega
    | ⟨1, _⟩ => show win1_1.index t (1 : Fin 2) * 128 + 1 * (j 1).val = win1_8.index t (1 : Fin 2) * 128 + 1 * (j 1).val; omega
  have h2 : iblk1 V c 2 t (ix2 (n0 := 5000) (n1 := 1) (j 0) 0) = V c main_v27 (ix2 (n0 := 50000) (n1 := 1) ((((cfg1.win 8).blk t).view.emb j) 0) 0) := by
    show V c main_v27 (((cfg1.win 2).blk t).view.emb (ix2 (n0 := 5000) (n1 := 1) (j 0) 0)) = _
    refine congrArg _ (funext fun a => Fin.ext ?_)
    match a with
    | ⟨0, _⟩ => show win1_2.index t (0 : Fin 2) * 5000 + 1 * (j 0).val = win1_8.index t (0 : Fin 2) * 5000 + 1 * (j 0).val; omega
    | ⟨1, _⟩ => show win1_2.index t (1 : Fin 2) * 1 + 1 * 0 = 0; omega
  have h3 : iblk1 V c 3 t (ix2 (n0 := 1) (n1 := 128) 0 (j 1)) = V c main_v42 (ix2 (n0 := 1) (n1 := 128) 0 ((((cfg1.win 8).blk t).view.emb j) 1)) := by
    show V c main_v42 (((cfg1.win 3).blk t).view.emb (ix2 (n0 := 1) (n1 := 128) 0 (j 1))) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_8.index t (1 : Fin 2) * 128 + 1 * (j 1).val; omega
  have h4 : iblk1 V c 4 t (ix2 (n0 := 1) (n1 := 128) 0 (j 1)) = V c main_v43 (ix2 (n0 := 1) (n1 := 128) 0 ((((cfg1.win 8).blk t).view.emb j) 1)) := by
    show V c main_v43 (((cfg1.win 4).blk t).view.emb (ix2 (n0 := 1) (n1 := 128) 0 (j 1))) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_8.index t (1 : Fin 2) * 128 + 1 * (j 1).val; omega
  have h5 : iblk1 V c 5 t (ix2 (n0 := 1) (n1 := 128) 0 (j 1)) = V c main_v44 (ix2 (n0 := 1) (n1 := 128) 0 ((((cfg1.win 8).blk t).view.emb j) 1)) := by
    show V c main_v44 (((cfg1.win 5).blk t).view.emb (ix2 (n0 := 1) (n1 := 128) 0 (j 1))) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * (j 1).val = win1_8.index t (1 : Fin 2) * 128 + 1 * (j 1).val; omega
  have h6 : iblk1 V c 6 t (ix2 (n0 := 1) (n1 := 128) 0 (j 1)) = V c main_v45 (ix2 (n0 := 1) (n1 := 128) 0 ((((cfg1.win 8).blk t).view.emb j) 1)) := by
    show V c main_v45 (((cfg1.win 6).blk t).view.emb (ix2 (n0 := 1) (n1 := 128) 0 (j 1))) = _
    refine congrArg _ (funext fun a => Fin.ext ?_)
    match a with
    | ⟨0, _⟩ => show win1_6.index t (0 : Fin 2) * 1 + 1 * 0 = 0; omega
    | ⟨1, _⟩ => show win1_6.index t (1 : Fin 2) * 128 + 1 * (j 1).val = win1_8.index t (1 : Fin 2) * 128 + 1 * (j 1).val; omega
  have h7 : iblk1 V c 7 t (ix2 (n0 := 1) (n1 := 128) 0 (j 1)) = V c main_v46 (ix2 (n0 := 1) (n1 := 128) 0 ((((cfg1.win 8).blk t).view.emb j) 1)) := by
    show V c main_v46 (((cfg1.win 7).blk t).view.emb (ix2 (n0 := 1) (n1 := 128) 0 (j 1))) = _
    refine congrArg _ (funext fun a => Fin.ext ?_)
    match a with
    | ⟨0, _⟩ => show win1_7.index t (0 : Fin 2) * 1 + 1 * 0 = 0; omega
    | ⟨1, _⟩ => show win1_7.index t (1 : Fin 2) * 128 + 1 * (j 1).val = win1_8.index t (1 : Fin 2) * 128 + 1 * (j 1).val; omega
  rw [h0, h1, h2, h3, h4, h5, h6, h7]

/-- An index of the output array lies in point t's block iff each coordinate lies in the block's range. -/
theorem mem_blk (t : Fin cfg1.N) (i : S50000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v47).slice (win1_8.rect t)).set ↔ _
  rw [View.set_slice_whole, Rect.mem_set_unit]
  exact Iff.rfl

/-- Every row is in the block of the point numbered by the row divided by 5000. -/
theorem cover (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  obtain ⟨t, ht⟩ : ∃ t : Fin cfg1.N, t.val = (i 0).val / 5000 := ⟨⟨(i 0).val / 5000, by rw [show cfg1.N = 10 from N_1]; omega⟩, rfl⟩
  obtain ⟨-, -, -, -, -, -, -, -, -, -, -, -, -, -, -, -, a8, b8, -⟩ := idx_facts t
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 128 ≤ (i 1).val ∧ (i 1).val < win1_8.index t (1 : Fin 2) * 128 + 128; omega

/-- After the launch the output array is the whole array of entries. -/
theorem final (c : Dev nD) :
    (dat1 V c).arrAt 8 cfg1.N = Cert.NormClamp.whole (N := 50000) (V c main_v41) (V c main_v28) (V c main_v27) (V c main_v42) (V c main_v43) (V c main_v44) (V c main_v45) (V c main_v46) :=
  (dat1 V c).arrAt_eq_of_cover 8 _ (fun t _ => flushed_eq V c t) cover

end Cert.KernelIdeal.CombLaunch1

end
-- ==== Proof.CombLaunch3.lean ====
/-
  The second layer's normalise-and-clamp launch, whole.

  The grid has ten points; point t loads rows 5000·t … 5000·t + 4999 of the aggregated sums, of the projected features
  and of the column of self-loop scales, and the five per-feature rows whole, and writes back the same rows of the
  output. An entry of the written block depends on the same entry of the first two arrays, on the scale of its node and
  on the per-feature values of its feature (Bodies.lean), so block t of the output is block t of the whole array of
  entries; the ten blocks tile the 50000 rows, so after the launch the output array is that whole array, every operand
  read as the launch finds it.
-/
import proofs.«105856_j1056561955280_1_alg».proof.Proof.Gen.KernelIdeal.Frame
import proofs.«105856_j1056561955280_1_alg».proof.Proof.Bodies
import Idealize.ShloMosaic.Lib.Pipeline.Value

set_option maxRecDepth 16384

noncomputable section

namespace Cert.KernelIdeal.CombLaunch3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three node-indexed operands and the output move down the rows with the
    point, the five per-feature rows stay. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ t.val < 10 :=
  (by decide +kernel : ∀ t : Fin grid3.N, _)

set_option maxHeartbeats 4000000 in
/-- What point t writes back is block t of the whole array of entries. -/
theorem flushed_eq (c : Dev nD) (t : Fin cfg3.N) :
    (dat3 V c).flushed 8 t = ((cfg3.win 8).blk t).view.read (Elt Ideal)
      (Cert.NormClamp.whole (N := 50000) (V c main_v61) (V c main_v48) (V c main_v27) (V c main_v62) (V c main_v63) (V c main_v64) (V c main_v65) (V c main_v66)) := by
  show (cfg3.win 8).cut (grid3.coords t) ((dat3 V c).after 8 t) = _
  rw [after3_8]
  unfold out3_8
  rw [View.canon_unit_zero hz]
  simp only [View.ld_unit_zero (S := S5000x128) hz, View.ld_unit_zero (S := S5000x1) hz, View.ld_unit_zero (S := S1x128) hz]
  rw [Bodies.comb_body3]
  obtain ⟨a0, b0, a1, b1, a2, b2, a3, b3, a4, b4, a5, b5, a6, b6, a7, b7, a8, b8, lt⟩ := idx_facts t
  funext j
  have hj0 : (j 0).val < 5000 := (j 0).isLt
  have hj1 : (j 1).val < 128 := (j 1).isLt
  show Cert.NormClamp.entry (iblk3 V c 0 t j) (iblk3 V c 1 t j) (iblk3 V c 2 t (ix2 (n0 := 5000) (n1 := 1) (j 0) 0))
      (iblk3 V c 3 t (ix2 (n0 := 1) (n1 := 128) 0 (j 1))) (iblk3 V c 4 t (ix2 (n0 := 1) (n1 := 128) 0 (j 1)))
      (iblk3 V c 5 t (ix2 (n0 := 1) (n1 := 128) 0 (j 1))) (iblk3 V c 6 t (ix2 (n0 := 1) (n1 := 128) 0 (j 1)))
      (iblk3 V c 7 t (ix2 (n0 := 1) (n1 := 128) 0 (j 1)))
    = Cert.NormClamp.entry (V c main_v61 (((cfg3.win 8).blk t).view.emb j)) (V c main_v48 (((cfg3.win 8).blk t).view.emb j))
      (V c main_v27 (ix2 (n0 := 50000) (n1 := 1) ((((cfg3.win 8).blk t).view.emb j) 0) 0))
      (V c main_v62 (ix2 (n0 := 1) (n1 := 128) 0 ((((cfg3.win 8).blk t).view.emb j) 1)))
      (V c main_v63 (ix2 (n0 := 1) (n1 := 128) 0 ((((cfg3.win 8).blk t).view.emb j) 1)))
      (V c main_v64 (ix2 (n0 := 1) (n1 := 128) 0 ((((cfg3.win 8).blk t).view.emb j) 1)))
      (V c main_v65 (ix2 (n0 := 1) (n1 := 128) 0 ((((cfg3.win 8).blk t).view.emb j) 1)))
      (V c main_v66 (ix2 (n0 := 1) (n1 := 128) 0 ((((cfg3.win 8).blk t).view.emb j) 1)))
  have h0 : iblk3 V c 0 t j = V c main_v61 (((cfg3.win 8).blk t).view.emb j) := by
    show V c main_v61 (((cfg3.win 0).blk t).view.emb j) = _
    refine congrArg _ (funext fun a => Fin.ext ?_)
    match a with
    | ⟨0, _⟩ => show win3_0.index t (0 : Fin 2) * 5000 + 1 * (j 0).val = win3_8.index t (0 : Fin 2) * 5000 + 1 * (j 0).val; omega
    | ⟨1, _⟩ => show win3_0.index t (1 : Fin 2) * 128 + 1 * (j 1).val = win3_8.index t (1 : Fin 2) * 128 + 1 * (j 1).val; omega
  have h1 : iblk3 V c 1 t j = V c main_v48 (((cfg3.win 8).blk t).view.emb j) := by
    show V c main_v48 (((cfg3.win 1).blk t).view.emb j) = _
    refine congrArg _ (funext fun a => Fin.ext ?_)
    match a with
    | ⟨0, _⟩ => show win3_1.index t (0 : Fin 2) * 5000 + 1 * (j 0).val = win3_8.index t (0 : Fin 2) * 5000 + 1 * (j 0).val; omega
    | ⟨1, _⟩ => show win3_1.index t (1 : Fin 2) * 128 + 1 * (j 1).val = win3_8.index t (1 : Fin 2) * 128 + 1 * (j 1).val; omega
  have h2 : iblk3 V c 2 t (ix2 (n0 := 5000) (n1 := 1) (j 0) 0) = V c main_v27 (ix2 (n0 := 50000) (n1 := 1) ((((cfg3.win 8).blk t).view.emb j) 0) 0) := by
    show V c main_v27 (((cfg3.win 2).blk t).view.emb (ix2 (n0 := 5000) (n1 := 1) (j 0) 0)) = _
    refine congrArg _ (funext fun a => Fin.ext ?_)
    match a with
    | ⟨0, _⟩ => show win3_2.index t (0 : Fin 2) * 5000 + 1 * (j 0).val = win3_8.index t (0 : Fin 2) * 5000 + 1 * (j 0).val; omega
    | ⟨1, _⟩ => show win3_2.index t (1 : Fin 2) * 1 + 1 * 0 = 0; omega
  have h3 : iblk3 V c 3 t (ix2 (n0 := 1) (n1 := 128) 0 (j 1)) = V c main_v62 (ix2 (n0 := 1) (n1 := 128) 0 ((((cfg3.win 8).blk t).view.emb j) 1)) := by
    show V c main_v62 (((cfg3.win 3).blk t).view.emb (ix2 (n0 := 1) (n1 := 128) 0 (j 1))) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_8.index t (1 : Fin 2) * 128 + 1 * (j 1).val; omega
  have h4 : iblk3 V c 4 t (ix2 (n0 := 1) (n1 := 128) 0 (j 1)) = V c main_v63 (ix2 (n0 := 1) (n1 := 128) 0 ((((cfg3.win 8).blk t).view.emb j) 1)) := by
    show V c main_v63 (((cfg3.win 4).blk t).view.emb (ix2 (n0 := 1) (n1 := 128) 0 (j 1))) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_8.index t (1 : Fin 2) * 128 + 1 * (j 1).val; omega
  have h5 : iblk3 V c 5 t (ix2 (n0 := 1) (n1 := 128) 0 (j 1)) = V c main_v64 (ix2 (n0 := 1) (n1 := 128) 0 ((((cfg3.win 8).blk t).view.emb j) 1)) := by
    show V c main_v64 (((cfg3.win 5).blk t).view.emb (ix2 (n0 := 1) (n1 := 128) 0 (j 1))) = _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * (j 1).val = win3_8.index t (1 : Fin 2) * 128 + 1 * (j 1).val; omega
  have h6 : iblk3 V c 6 t (ix2 (n0 := 1) (n1 := 128) 0 (j 1)) = V c main_v65 (ix2 (n0 := 1) (n1 := 128) 0 ((((cfg3.win 8).blk t).view.emb j) 1)) := by
    show V c main_v65 (((cfg3.win 6).blk t).view.emb (ix2 (n0 := 1) (n1 := 128) 0 (j 1))) = _
    refine congrArg _ (funext fun a => Fin.ext ?_)
    match a with
    | ⟨0, _⟩ => show win3_6.index t (0 : Fin 2) * 1 + 1 * 0 = 0; omega
    | ⟨1, _⟩ => show win3_6.index t (1 : Fin 2) * 128 + 1 * (j 1).val = win3_8.index t (1 : Fin 2) * 128 + 1 * (j 1).val; omega
  have h7 : iblk3 V c 7 t (ix2 (n0 := 1) (n1 := 128) 0 (j 1)) = V c main_v66 (ix2 (n0 := 1) (n1 := 128) 0 ((((cfg3.win 8).blk t).view.emb j) 1)) := by
    show V c main_v66 (((cfg3.win 7).blk t).view.emb (ix2 (n0 := 1) (n1 := 128) 0 (j 1))) = _
    refine congrArg _ (funext fun a => Fin.ext ?_)
    match a with
    | ⟨0, _⟩ => show win3_7.index t (0 : Fin 2) * 1 + 1 * 0 = 0; omega
    | ⟨1, _⟩ => show win3_7.index t (1 : Fin 2) * 128 + 1 * (j 1).val = win3_8.index t (1 : Fin 2) * 128 + 1 * (j 1).val; omega
  rw [h0, h1, h2, h3, h4, h5, h6, h7]

/-- An index of the output array lies in point t's block iff each coordinate lies in the block's range. -/
theorem mem_blk (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole main_v67).slice (win3_8.rect t)).set ↔ _
  rw [View.set_slice_whole, Rect.mem_set_unit]
  exact Iff.rfl

/-- Every row is in the block of the point numbered by the row divided by 5000. -/
theorem cover (i : S50000x128.Idx) : ∃ t : Fin cfg3.N, (cfg3.win 8).flush t = true ∧ i ∈ ((cfg3.win 8).blk t).view.set := by
  have hi0 : (i 0).val < 50000 := (i 0).isLt
  have hi1 : (i 1).val < 128 := (i 1).isLt
  obtain ⟨t, ht⟩ : ∃ t : Fin cfg3.N, t.val = (i 0).val / 5000 := ⟨⟨(i 0).val / 5000, by rw [show cfg3.N = 10 from N_3]; omega⟩, rfl⟩
  obtain ⟨-, -, -, -, -, -, -, -, -, -, -, -, -, -, -, -, a8, b8, -⟩ := idx_facts t
  refine ⟨t, flush3_8 t, ?_⟩
  rw [mem_blk]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 128 ≤ (i 1).val ∧ (i 1).val < win3_8.index t (1 : Fin 2) * 128 + 128; omega

/-- After the launch the output array is the whole array of entries. -/
theorem final (c : Dev nD) :
    (dat3 V c).arrAt 8 cfg3.N = Cert.NormClamp.whole (N := 50000) (V c main_v61) (V c main_v48) (V c main_v27) (V c main_v62) (V c main_v63) (V c main_v64) (V c main_v65) (V c main_v66) :=
  (dat3 V c).arrAt_eq_of_cover 8 _ (fun t _ => flushed_eq V c t) cover

end Cert.KernelIdeal.CombLaunch3

end
-- ==== Proof.KeepA.lean ====
/-
  Buffers that pass through a stretch of host operations or a launch untouched.

  Between the launch memory and the result the program crosses eight boundaries: four stretches of host operations and
  four grid launches. A stretch changes only the buffers its operations write; a launch changes only its own output
  array. The facts below say, boundary by boundary, that an argument array, or one of the graph quantities computed once
  before the first launch (the edge rows, the edge weights, the self-loop scales), or a projection read again later, is
  after the boundary what it was before it.
  This file: the first stretch of host operations.
-/
import proofs.«105856_j1056561955280_1_alg».proof.Proof.Gen.KernelIdeal.Frame

set_option maxRecDepth 16384

noncomputable section

namespace Cert.KernelIdeal.KeepA

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch of host operations writes holds after the stretch what it held before. -/
macro "unwritten" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem keep1_arg2 (c : Dev nD) : W1 m ρ c (Proc.devRef .tc main_arg2) = W0 m ρ c (Proc.devRef .tc main_arg2) :=
  (by unwritten hostOps0)
theorem keep1_arg15 (c : Dev nD) : W1 m ρ c (Proc.devRef .tc main_arg15) = W0 m ρ c (Proc.devRef .tc main_arg15) :=
  (by unwritten hostOps0)
theorem keep1_arg16 (c : Dev nD) : W1 m ρ c (Proc.devRef .tc main_arg16) = W0 m ρ c (Proc.devRef .tc main_arg16) :=
  (by unwritten hostOps0)
theorem keep1_arg10 (c : Dev nD) : W1 m ρ c (Proc.devRef .tc main_arg10) = W0 m ρ c (Proc.devRef .tc main_arg10) :=
  (by unwritten hostOps0)
theorem keep1_arg11 (c : Dev nD) : W1 m ρ c (Proc.devRef .tc main_arg11) = W0 m ρ c (Proc.devRef .tc main_arg11) :=
  (by unwritten hostOps0)
theorem keep1_arg12 (c : Dev nD) : W1 m ρ c (Proc.devRef .tc main_arg12) = W0 m ρ c (Proc.devRef .tc main_arg12) :=
  (by unwritten hostOps0)
theorem keep1_arg13 (c : Dev nD) : W1 m ρ c (Proc.devRef .tc main_arg13) = W0 m ρ c (Proc.devRef .tc main_arg13) :=
  (by unwritten hostOps0)
theorem keep1_arg14 (c : Dev nD) : W1 m ρ c (Proc.devRef .tc main_arg14) = W0 m ρ c (Proc.devRef .tc main_arg14) :=
  (by unwritten hostOps0)
theorem keep1_arg9 (c : Dev nD) : W1 m ρ c (Proc.devRef .tc main_arg9) = W0 m ρ c (Proc.devRef .tc main_arg9) :=
  (by unwritten hostOps0)
theorem keep1_arg4 (c : Dev nD) : W1 m ρ c (Proc.devRef .tc main_arg4) = W0 m ρ c (Proc.devRef .tc main_arg4) :=
  (by unwritten hostOps0)
theorem keep1_arg5 (c : Dev nD) : W1 m ρ c (Proc.devRef .tc main_arg5) = W0 m ρ c (Proc.devRef .tc main_arg5) :=
  (by unwritten hostOps0)
theorem keep1_arg6 (c : Dev nD) : W1 m ρ c (Proc.devRef .tc main_arg6) = W0 m ρ c (Proc.devRef .tc main_arg6) :=
  (by unwritten hostOps0)
theorem keep1_arg7 (c : Dev nD) : W1 m ρ c (Proc.devRef .tc main_arg7) = W0 m ρ c (Proc.devRef .tc main_arg7) :=
  (by unwritten hostOps0)
theorem keep1_arg8 (c : Dev nD) : W1 m ρ c (Proc.devRef .tc main_arg8) = W0 m ρ c (Proc.devRef .tc main_arg8) :=
  (by unwritten hostOps0)
theorem keep1_arg0 (c : Dev nD) : W1 m ρ c (Proc.devRef .tc main_arg0) = W0 m ρ c (Proc.devRef .tc main_arg0) :=
  (by unwritten hostOps0)
theorem keep1_arg3 (c : Dev nD) : W1 m ρ c (Proc.devRef .tc main_arg3) = W0 m ρ c (Proc.devRef .tc main_arg3) :=
  (by unwritten hostOps0)

end Cert.KernelIdeal.KeepA

end
-- ==== Proof.KeepB.lean ====
/-
  Buffers that pass through a stretch of host operations or a launch untouched.

  Between the launch memory and the result the program crosses eight boundaries: four stretches of host operations and
  four grid launches. A stretch changes only the buffers its operations write; a launch changes only its own output
  array. The facts below say, boundary by boundary, that an argument array, or one of the graph quantities computed once
  before the first launch (the edge rows, the edge weights, the self-loop scales), or a projection read again later, is
  after the boundary what it was before it.
  This file: the first launch and the stretch after it.
-/
import proofs.«105856_j1056561955280_1_alg».proof.Proof.Gen.KernelIdeal.Frame

set_option maxRecDepth 16384

noncomputable section

namespace Cert.KernelIdeal.KeepB

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch of host operations writes holds after the stretch what it held before. -/
macro "unwritten" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem keep2_arg2 (c : Dev nD) : W2 m ρ c (Proc.devRef .tc main_arg2) = W1 m ρ c (Proc.devRef .tc main_arg2) :=
  W2_of_ne m ρ c main_arg2 (by decide)
theorem keep3_arg2 (c : Dev nD) : W3 m ρ c (Proc.devRef .tc main_arg2) = W2 m ρ c (Proc.devRef .tc main_arg2) :=
  (by unwritten hostOps1)
theorem keep2_arg15 (c : Dev nD) : W2 m ρ c (Proc.devRef .tc main_arg15) = W1 m ρ c (Proc.devRef .tc main_arg15) :=
  W2_of_ne m ρ c main_arg15 (by decide)
theorem keep3_arg15 (c : Dev nD) : W3 m ρ c (Proc.devRef .tc main_arg15) = W2 m ρ c (Proc.devRef .tc main_arg15) :=
  (by unwritten hostOps1)
theorem keep2_arg16 (c : Dev nD) : W2 m ρ c (Proc.devRef .tc main_arg16) = W1 m ρ c (Proc.devRef .tc main_arg16) :=
  W2_of_ne m ρ c main_arg16 (by decide)
theorem keep3_arg16 (c : Dev nD) : W3 m ρ c (Proc.devRef .tc main_arg16) = W2 m ρ c (Proc.devRef .tc main_arg16) :=
  (by unwritten hostOps1)
theorem keep2_arg10 (c : Dev nD) : W2 m ρ c (Proc.devRef .tc main_arg10) = W1 m ρ c (Proc.devRef .tc main_arg10) :=
  W2_of_ne m ρ c main_arg10 (by decide)
theorem keep3_arg10 (c : Dev nD) : W3 m ρ c (Proc.devRef .tc main_arg10) = W2 m ρ c (Proc.devRef .tc main_arg10) :=
  (by unwritten hostOps1)
theorem keep2_arg11 (c : Dev nD) : W2 m ρ c (Proc.devRef .tc main_arg11) = W1 m ρ c (Proc.devRef .tc main_arg11) :=
  W2_of_ne m ρ c main_arg11 (by decide)
theorem keep3_arg11 (c : Dev nD) : W3 m ρ c (Proc.devRef .tc main_arg11) = W2 m ρ c (Proc.devRef .tc main_arg11) :=
  (by unwritten hostOps1)
theorem keep2_arg12 (c : Dev nD) : W2 m ρ c (Proc.devRef .tc main_arg12) = W1 m ρ c (Proc.devRef .tc main_arg12) :=
  W2_of_ne m ρ c main_arg12 (by decide)
theorem keep3_arg12 (c : Dev nD) : W3 m ρ c (Proc.devRef .tc main_arg12) = W2 m ρ c (Proc.devRef .tc main_arg12) :=
  (by unwritten hostOps1)
theorem keep2_arg13 (c : Dev nD) : W2 m ρ c (Proc.devRef .tc main_arg13) = W1 m ρ c (Proc.devRef .tc main_arg13) :=
  W2_of_ne m ρ c main_arg13 (by decide)
theorem keep3_arg13 (c : Dev nD) : W3 m ρ c (Proc.devRef .tc main_arg13) = W2 m ρ c (Proc.devRef .tc main_arg13) :=
  (by unwritten hostOps1)
theorem keep2_arg14 (c : Dev nD) : W2 m ρ c (Proc.devRef .tc main_arg14) = W1 m ρ c (Proc.devRef .tc main_arg14) :=
  W2_of_ne m ρ c main_arg14 (by decide)
theorem keep3_arg14 (c : Dev nD) : W3 m ρ c (Proc.devRef .tc main_arg14) = W2 m ρ c (Proc.devRef .tc main_arg14) :=
  (by unwritten hostOps1)
theorem keep2_arg9 (c : Dev nD) : W2 m ρ c (Proc.devRef .tc main_arg9) = W1 m ρ c (Proc.devRef .tc main_arg9) :=
  W2_of_ne m ρ c main_arg9 (by decide)
theorem keep3_arg9 (c : Dev nD) : W3 m ρ c (Proc.devRef .tc main_arg9) = W2 m ρ c (Proc.devRef .tc main_arg9) :=
  (by unwritten hostOps1)
theorem keep2_arg4 (c : Dev nD) : W2 m ρ c (Proc.devRef .tc main_arg4) = W1 m ρ c (Proc.devRef .tc main_arg4) :=
  W2_of_ne m ρ c main_arg4 (by decide)
theorem keep2_arg5 (c : Dev nD) : W2 m ρ c (Proc.devRef .tc main_arg5) = W1 m ρ c (Proc.devRef .tc main_arg5) :=
  W2_of_ne m ρ c main_arg5 (by decide)
theorem keep2_arg6 (c : Dev nD) : W2 m ρ c (Proc.devRef .tc main_arg6) = W1 m ρ c (Proc.devRef .tc main_arg6) :=
  W2_of_ne m ρ c main_arg6 (by decide)
theorem keep2_arg7 (c : Dev nD) : W2 m ρ c (Proc.devRef .tc main_arg7) = W1 m ρ c (Proc.devRef .tc main_arg7) :=
  W2_of_ne m ρ c main_arg7 (by decide)
theorem keep2_arg8 (c : Dev nD) : W2 m ρ c (Proc.devRef .tc main_arg8) = W1 m ρ c (Proc.devRef .tc main_arg8) :=
  W2_of_ne m ρ c main_arg8 (by decide)
theorem keep2_v1 (c : Dev nD) : W2 m ρ c (Proc.devRef .tc main_v1) = W1 m ρ c (Proc.devRef .tc main_v1) :=
  W2_of_ne m ρ c main_v1 (by decide)
theorem keep3_v1 (c : Dev nD) : W3 m ρ c (Proc.devRef .tc main_v1) = W2 m ρ c (Proc.devRef .tc main_v1) :=
  (by unwritten hostOps1)
theorem keep2_v3 (c : Dev nD) : W2 m ρ c (Proc.devRef .tc main_v3) = W1 m ρ c (Proc.devRef .tc main_v3) :=
  W2_of_ne m ρ c main_v3 (by decide)
theorem keep3_v3 (c : Dev nD) : W3 m ρ c (Proc.devRef .tc main_v3) = W2 m ρ c (Proc.devRef .tc main_v3) :=
  (by unwritten hostOps1)
theorem keep2_v25 (c : Dev nD) : W2 m ρ c (Proc.devRef .tc main_v25) = W1 m ρ c (Proc.devRef .tc main_v25) :=
  W2_of_ne m ρ c main_v25 (by decide)
theorem keep3_v25 (c : Dev nD) : W3 m ρ c (Proc.devRef .tc main_v25) = W2 m ρ c (Proc.devRef .tc main_v25) :=
  (by unwritten hostOps1)
theorem keep2_v27 (c : Dev nD) : W2 m ρ c (Proc.devRef .tc main_v27) = W1 m ρ c (Proc.devRef .tc main_v27) :=
  W2_of_ne m ρ c main_v27 (by decide)
theorem keep3_v27 (c : Dev nD) : W3 m ρ c (Proc.devRef .tc main_v27) = W2 m ρ c (Proc.devRef .tc main_v27) :=
  (by unwritten hostOps1)
theorem keep3_v28 (c : Dev nD) : W3 m ρ c (Proc.devRef .tc main_v28) = W2 m ρ c (Proc.devRef .tc main_v28) :=
  (by unwritten hostOps1)

end Cert.KernelIdeal.KeepB

end
-- ==== Proof.KeepC.lean ====
/-
  Buffers that pass through a stretch of host operations or a launch untouched.

  Between the launch memory and the result the program crosses eight boundaries: four stretches of host operations and
  four grid launches. A stretch changes only the buffers its operations write; a launch changes only its own output
  array. The facts below say, boundary by boundary, that an argument array, or one of the graph quantities computed once
  before the first launch (the edge rows, the edge weights, the self-loop scales), or a projection read again later, is
  after the boundary what it was before it.
  This file: the second, third and fourth launches and the stretch between the last two.
-/
import proofs.«105856_j1056561955280_1_alg».proof.Proof.Gen.KernelIdeal.Frame

set_option maxRecDepth 16384

noncomputable section

namespace Cert.KernelIdeal.KeepC

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no operation of a stretch of host operations writes holds after the stretch what it held before. -/
macro "unwritten" ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

theorem keep4_arg2 (c : Dev nD) : W4 m ρ c (Proc.devRef .tc main_arg2) = W3 m ρ c (Proc.devRef .tc main_arg2) :=
  W4_of_ne m ρ c main_arg2 (by decide)
theorem keep5_arg2 (c : Dev nD) : W5 m ρ c (Proc.devRef .tc main_arg2) = W4 m ρ c (Proc.devRef .tc main_arg2) :=
  W5_of_ne m ρ c main_arg2 (by decide)
theorem keep6_arg2 (c : Dev nD) : W6 m ρ c (Proc.devRef .tc main_arg2) = W5 m ρ c (Proc.devRef .tc main_arg2) :=
  (by unwritten hostOps3)
theorem keep7_arg2 (c : Dev nD) : W7 m ρ c (Proc.devRef .tc main_arg2) = W6 m ρ c (Proc.devRef .tc main_arg2) :=
  W7_of_ne m ρ c main_arg2 (by decide)
theorem keep4_arg15 (c : Dev nD) : W4 m ρ c (Proc.devRef .tc main_arg15) = W3 m ρ c (Proc.devRef .tc main_arg15) :=
  W4_of_ne m ρ c main_arg15 (by decide)
theorem keep5_arg15 (c : Dev nD) : W5 m ρ c (Proc.devRef .tc main_arg15) = W4 m ρ c (Proc.devRef .tc main_arg15) :=
  W5_of_ne m ρ c main_arg15 (by decide)
theorem keep6_arg15 (c : Dev nD) : W6 m ρ c (Proc.devRef .tc main_arg15) = W5 m ρ c (Proc.devRef .tc main_arg15) :=
  (by unwritten hostOps3)
theorem keep7_arg15 (c : Dev nD) : W7 m ρ c (Proc.devRef .tc main_arg15) = W6 m ρ c (Proc.devRef .tc main_arg15) :=
  W7_of_ne m ρ c main_arg15 (by decide)
theorem keep4_arg16 (c : Dev nD) : W4 m ρ c (Proc.devRef .tc main_arg16) = W3 m ρ c (Proc.devRef .tc main_arg16) :=
  W4_of_ne m ρ c main_arg16 (by decide)
theorem keep5_arg16 (c : Dev nD) : W5 m ρ c (Proc.devRef .tc main_arg16) = W4 m ρ c (Proc.devRef .tc main_arg16) :=
  W5_of_ne m ρ c main_arg16 (by decide)
theorem keep6_arg16 (c : Dev nD) : W6 m ρ c (Proc.devRef .tc main_arg16) = W5 m ρ c (Proc.devRef .tc main_arg16) :=
  (by unwritten hostOps3)
theorem keep7_arg16 (c : Dev nD) : W7 m ρ c (Proc.devRef .tc main_arg16) = W6 m ρ c (Proc.devRef .tc main_arg16) :=
  W7_of_ne m ρ c main_arg16 (by decide)
theorem keep4_arg10 (c : Dev nD) : W4 m ρ c (Proc.devRef .tc main_arg10) = W3 m ρ c (Proc.devRef .tc main_arg10) :=
  W4_of_ne m ρ c main_arg10 (by decide)
theorem keep5_arg10 (c : Dev nD) : W5 m ρ c (Proc.devRef .tc main_arg10) = W4 m ρ c (Proc.devRef .tc main_arg10) :=
  W5_of_ne m ρ c main_arg10 (by decide)
theorem keep4_arg11 (c : Dev nD) : W4 m ρ c (Proc.devRef .tc main_arg11) = W3 m ρ c (Proc.devRef .tc main_arg11) :=
  W4_of_ne m ρ c main_arg11 (by decide)
theorem keep5_arg11 (c : Dev nD) : W5 m ρ c (Proc.devRef .tc main_arg11) = W4 m ρ c (Proc.devRef .tc main_arg11) :=
  W5_of_ne m ρ c main_arg11 (by decide)
theorem keep4_arg12 (c : Dev nD) : W4 m ρ c (Proc.devRef .tc main_arg12) = W3 m ρ c (Proc.devRef .tc main_arg12) :=
  W4_of_ne m ρ c main_arg12 (by decide)
theorem keep5_arg12 (c : Dev nD) : W5 m ρ c (Proc.devRef .tc main_arg12) = W4 m ρ c (Proc.devRef .tc main_arg12) :=
  W5_of_ne m ρ c main_arg12 (by decide)
theorem keep4_arg13 (c : Dev nD) : W4 m ρ c (Proc.devRef .tc main_arg13) = W3 m ρ c (Proc.devRef .tc main_arg13) :=
  W4_of_ne m ρ c main_arg13 (by decide)
theorem keep5_arg13 (c : Dev nD) : W5 m ρ c (Proc.devRef .tc main_arg13) = W4 m ρ c (Proc.devRef .tc main_arg13) :=
  W5_of_ne m ρ c main_arg13 (by decide)
theorem keep4_arg14 (c : Dev nD) : W4 m ρ c (Proc.devRef .tc main_arg14) = W3 m ρ c (Proc.devRef .tc main_arg14) :=
  W4_of_ne m ρ c main_arg14 (by decide)
theorem keep5_arg14 (c : Dev nD) : W5 m ρ c (Proc.devRef .tc main_arg14) = W4 m ρ c (Proc.devRef .tc main_arg14) :=
  W5_of_ne m ρ c main_arg14 (by decide)
theorem keep4_arg9 (c : Dev nD) : W4 m ρ c (Proc.devRef .tc main_arg9) = W3 m ρ c (Proc.devRef .tc main_arg9) :=
  W4_of_ne m ρ c main_arg9 (by decide)
theorem keep4_v1 (c : Dev nD) : W4 m ρ c (Proc.devRef .tc main_v1) = W3 m ρ c (Proc.devRef .tc main_v1) :=
  W4_of_ne m ρ c main_v1 (by decide)
theorem keep5_v1 (c : Dev nD) : W5 m ρ c (Proc.devRef .tc main_v1) = W4 m ρ c (Proc.devRef .tc main_v1) :=
  W5_of_ne m ρ c main_v1 (by decide)
theorem keep4_v3 (c : Dev nD) : W4 m ρ c (Proc.devRef .tc main_v3) = W3 m ρ c (Proc.devRef .tc main_v3) :=
  W4_of_ne m ρ c main_v3 (by decide)
theorem keep5_v3 (c : Dev nD) : W5 m ρ c (Proc.devRef .tc main_v3) = W4 m ρ c (Proc.devRef .tc main_v3) :=
  W5_of_ne m ρ c main_v3 (by decide)
theorem keep4_v25 (c : Dev nD) : W4 m ρ c (Proc.devRef .tc main_v25) = W3 m ρ c (Proc.devRef .tc main_v25) :=
  W4_of_ne m ρ c main_v25 (by decide)
theorem keep5_v25 (c : Dev nD) : W5 m ρ c (Proc.devRef .tc main_v25) = W4 m ρ c (Proc.devRef .tc main_v25) :=
  W5_of_ne m ρ c main_v25 (by decide)
theorem keep4_v27 (c : Dev nD) : W4 m ρ c (Proc.devRef .tc main_v27) = W3 m ρ c (Proc.devRef .tc main_v27) :=
  (W4_arr m ρ c 2).trans (((dat1 (V3 m ρ) c).arrAt_in 2 rfl _).trans (A_eq1 (V3 m ρ) c 2))
theorem keep5_v27 (c : Dev nD) : W5 m ρ c (Proc.devRef .tc main_v27) = W4 m ρ c (Proc.devRef .tc main_v27) :=
  W5_of_ne m ρ c main_v27 (by decide)
theorem keep6_v27 (c : Dev nD) : W6 m ρ c (Proc.devRef .tc main_v27) = W5 m ρ c (Proc.devRef .tc main_v27) :=
  (by unwritten hostOps3)
theorem keep6_v48 (c : Dev nD) : W6 m ρ c (Proc.devRef .tc main_v48) = W5 m ρ c (Proc.devRef .tc main_v48) :=
  (by unwritten hostOps3)

end Cert.KernelIdeal.KeepC

end
-- ==== Proof.KernelNet.lean ====
/-
  The idealized kernel program's result is the network of Stages.lean applied to its arguments.

  The result buffer holds the final fold of the run (ResultRun.lean) read at the result. Walking that fold back from the
  result to the launch memory, one boundary at a time:
    · the last stretch of host operations is the per-graph mean and the classifier applied to the second layer's output;
    · a normalise-and-clamp launch leaves the array of NormClamp.lean's entries over its operands (CombLaunch1/3.lean),
      which is the reference's normalise-and-clamp step of the same operands (CombineEq.lean);
    · the stretch before it is the neighbour aggregation of the projected features, with the edge rows and edge weights
      computed once before the first launch and untouched since (KeepA/B/C.lean);
    · a projection launch leaves the product of its operand with the weights (ProjLaunch0/2.lean), which is the
      reference's dot_general (ProjEq.lean);
    · the first stretch computes deg^(-1/2), the edge weights and the self-loop scales from the edge list.
  Each step is stated at the buffers involved and closed by reading the host operations off the fold; the steps compose
  to the two layers and the pooling.
-/
import proofs.«105856_j1056561955280_1_alg».proof.Proof.Gen.KernelIdeal.Frame
import proofs.«105856_j1056561955280_1_alg».proof.Proof.Stages
import proofs.«105856_j1056561955280_1_alg».proof.Proof.CombineEq
import proofs.«105856_j1056561955280_1_alg».proof.Proof.ProjEq
import proofs.«105856_j1056561955280_1_alg».proof.Proof.ProjLaunch0
import proofs.«105856_j1056561955280_1_alg».proof.Proof.ProjLaunch2
import proofs.«105856_j1056561955280_1_alg».proof.Proof.CombLaunch1
import proofs.«105856_j1056561955280_1_alg».proof.Proof.CombLaunch3
import proofs.«105856_j1056561955280_1_alg».proof.Proof.KeepA
import proofs.«105856_j1056561955280_1_alg».proof.Proof.KeepB
import proofs.«105856_j1056561955280_1_alg».proof.Proof.KeepC
import Idealize.ShloMosaic.Lib.StableHlo.Run

set_option maxRecDepth 16384

noncomputable section

namespace Cert.KernelIdeal.KernelNet

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, wherever they are read -/

theorem arg0_at1 (c : Dev nD) : W1 m ρ c (Proc.devRef .tc main_arg0) = (m ((c : Thread nD τ).loc main_arg0)) :=
  (KeepA.keep1_arg0 m ρ c)
theorem arg3_at1 (c : Dev nD) : W1 m ρ c (Proc.devRef .tc main_arg3) = (m ((c : Thread nD τ).loc main_arg3)) :=
  (KeepA.keep1_arg3 m ρ c)
theorem arg4_at2 (c : Dev nD) : W2 m ρ c (Proc.devRef .tc main_arg4) = (m ((c : Thread nD τ).loc main_arg4)) :=
  ((KeepB.keep2_arg4 m ρ c).trans (KeepA.keep1_arg4 m ρ c))
theorem arg5_at2 (c : Dev nD) : W2 m ρ c (Proc.devRef .tc main_arg5) = (m ((c : Thread nD τ).loc main_arg5)) :=
  ((KeepB.keep2_arg5 m ρ c).trans (KeepA.keep1_arg5 m ρ c))
theorem arg6_at2 (c : Dev nD) : W2 m ρ c (Proc.devRef .tc main_arg6) = (m ((c : Thread nD τ).loc main_arg6)) :=
  ((KeepB.keep2_arg6 m ρ c).trans (KeepA.keep1_arg6 m ρ c))
theorem arg7_at2 (c : Dev nD) : W2 m ρ c (Proc.devRef .tc main_arg7) = (m ((c : Thread nD τ).loc main_arg7)) :=
  ((KeepB.keep2_arg7 m ρ c).trans (KeepA.keep1_arg7 m ρ c))
theorem arg8_at2 (c : Dev nD) : W2 m ρ c (Proc.devRef .tc main_arg8) = (m ((c : Thread nD τ).loc main_arg8)) :=
  ((KeepB.keep2_arg8 m ρ c).trans (KeepA.keep1_arg8 m ρ c))
theorem arg9_at4 (c : Dev nD) : W4 m ρ c (Proc.devRef .tc main_arg9) = (m ((c : Thread nD τ).loc main_arg9)) :=
  ((KeepC.keep4_arg9 m ρ c).trans ((KeepB.keep3_arg9 m ρ c).trans ((KeepB.keep2_arg9 m ρ c).trans (KeepA.keep1_arg9 m ρ c))))
theorem arg10_at5 (c : Dev nD) : W5 m ρ c (Proc.devRef .tc main_arg10) = (m ((c : Thread nD τ).loc main_arg10)) :=
  ((KeepC.keep5_arg10 m ρ c).trans ((KeepC.keep4_arg10 m ρ c).trans ((KeepB.keep3_arg10 m ρ c).trans ((KeepB.keep2_arg10 m ρ c).trans (KeepA.keep1_arg10 m ρ c)))))
theorem arg11_at5 (c : Dev nD) : W5 m ρ c (Proc.devRef .tc main_arg11) = (m ((c : Thread nD τ).loc main_arg11)) :=
  ((KeepC.keep5_arg11 m ρ c).trans ((KeepC.keep4_arg11 m ρ c).trans ((KeepB.keep3_arg11 m ρ c).trans ((KeepB.keep2_arg11 m ρ c).trans (KeepA.keep1_arg11 m ρ c)))))
theorem arg12_at5 (c : Dev nD) : W5 m ρ c (Proc.devRef .tc main_arg12) = (m ((c : Thread nD τ).loc main_arg12)) :=
  ((KeepC.keep5_arg12 m ρ c).trans ((KeepC.keep4_arg12 m ρ c).trans ((KeepB.keep3_arg12 m ρ c).trans ((KeepB.keep2_arg12 m ρ c).trans (KeepA.keep1_arg12 m ρ c)))))
theorem arg13_at5 (c : Dev nD) : W5 m ρ c (Proc.devRef .tc main_arg13) = (m ((c : Thread nD τ).loc main_arg13)) :=
  ((KeepC.keep5_arg13 m ρ c).trans ((KeepC.keep4_arg13 m ρ c).trans ((KeepB.keep3_arg13 m ρ c).trans ((KeepB.keep2_arg13 m ρ c).trans (KeepA.keep1_arg13 m ρ c)))))
theorem arg14_at5 (c : Dev nD) : W5 m ρ c (Proc.devRef .tc main_arg14) = (m ((c : Thread nD τ).loc main_arg14)) :=
  ((KeepC.keep5_arg14 m ρ c).trans ((KeepC.keep4_arg14 m ρ c).trans ((KeepB.keep3_arg14 m ρ c).trans ((KeepB.keep2_arg14 m ρ c).trans (KeepA.keep1_arg14 m ρ c)))))
theorem arg2_at7 (c : Dev nD) : W7 m ρ c (Proc.devRef .tc main_arg2) = (m ((c : Thread nD τ).loc main_arg2)) :=
  ((KeepC.keep7_arg2 m ρ c).trans ((KeepC.keep6_arg2 m ρ c).trans ((KeepC.keep5_arg2 m ρ c).trans ((KeepC.keep4_arg2 m ρ c).trans ((KeepB.keep3_arg2 m ρ c).trans ((KeepB.keep2_arg2 m ρ c).trans (KeepA.keep1_arg2 m ρ c)))))))
theorem arg15_at7 (c : Dev nD) : W7 m ρ c (Proc.devRef .tc main_arg15) = (m ((c : Thread nD τ).loc main_arg15)) :=
  ((KeepC.keep7_arg15 m ρ c).trans ((KeepC.keep6_arg15 m ρ c).trans ((KeepC.keep5_arg15 m ρ c).trans ((KeepC.keep4_arg15 m ρ c).trans ((KeepB.keep3_arg15 m ρ c).trans ((KeepB.keep2_arg15 m ρ c).trans (KeepA.keep1_arg15 m ρ c)))))))
theorem arg16_at7 (c : Dev nD) : W7 m ρ c (Proc.devRef .tc main_arg16) = (m ((c : Thread nD τ).loc main_arg16)) :=
  ((KeepC.keep7_arg16 m ρ c).trans ((KeepC.keep6_arg16 m ρ c).trans ((KeepC.keep5_arg16 m ρ c).trans ((KeepC.keep4_arg16 m ρ c).trans ((KeepB.keep3_arg16 m ρ c).trans ((KeepB.keep2_arg16 m ρ c).trans (KeepA.keep1_arg16 m ρ c)))))))

/-! ## The first stretch: the graph quantities -/

theorem src1 (c : Dev nD) : W1 m ρ c (Proc.devRef .tc main_v1) = Cert.Stages.srcRow (m ((c : Thread nD τ).loc main_arg1)) := by
  show StableHlo.after hostOps0 (W0 m ρ c) (Proc.devRef .tc main_v1) = _
  after_results_simp <;> rfl

theorem dst1 (c : Dev nD) : W1 m ρ c (Proc.devRef .tc main_v3) = Cert.Stages.dstRow (m ((c : Thread nD τ).loc main_arg1)) := by
  show StableHlo.after hostOps0 (W0 m ρ c) (Proc.devRef .tc main_v3) = _
  after_results_simp <;> rfl

theorem norm1 (c : Dev nD) : W1 m ρ c (Proc.devRef .tc main_v25) = Cert.Stages.norm (m ((c : Thread nD τ).loc main_arg1)) := by
  show StableHlo.after hostOps0 (W0 m ρ c) (Proc.devRef .tc main_v25) = _
  after_results_simp <;> rfl

theorem scale1 (c : Dev nD) : W1 m ρ c (Proc.devRef .tc main_v27)
    = shapeCast ⟨2, ![50000, 1]⟩ (show FVec Ideal S50000 .f32 from mulf (Cert.Stages.dis (m ((c : Thread nD τ).loc main_arg1))) (Cert.Stages.dis (m ((c : Thread nD τ).loc main_arg1)))) shapeCasts_S50000_S50000x1 := by
  show StableHlo.after hostOps0 (W0 m ρ c) (Proc.devRef .tc main_v27) = _
  after_results_simp <;> rfl

theorem src_at (c : Dev nD) : W5 m ρ c (Proc.devRef .tc main_v1) = Cert.Stages.srcRow (m ((c : Thread nD τ).loc main_arg1)) ∧ W2 m ρ c (Proc.devRef .tc main_v1) = Cert.Stages.srcRow (m ((c : Thread nD τ).loc main_arg1)) :=
  ⟨((KeepC.keep5_v1 m ρ c).trans ((KeepC.keep4_v1 m ρ c).trans ((KeepB.keep3_v1 m ρ c).trans (KeepB.keep2_v1 m ρ c)))).trans (src1 m ρ c), (KeepB.keep2_v1 m ρ c).trans (src1 m ρ c)⟩
theorem dst_at (c : Dev nD) : W5 m ρ c (Proc.devRef .tc main_v3) = Cert.Stages.dstRow (m ((c : Thread nD τ).loc main_arg1)) ∧ W2 m ρ c (Proc.devRef .tc main_v3) = Cert.Stages.dstRow (m ((c : Thread nD τ).loc main_arg1)) :=
  ⟨((KeepC.keep5_v3 m ρ c).trans ((KeepC.keep4_v3 m ρ c).trans ((KeepB.keep3_v3 m ρ c).trans (KeepB.keep2_v3 m ρ c)))).trans (dst1 m ρ c), (KeepB.keep2_v3 m ρ c).trans (dst1 m ρ c)⟩
theorem norm_at (c : Dev nD) : W5 m ρ c (Proc.devRef .tc main_v25) = Cert.Stages.norm (m ((c : Thread nD τ).loc main_arg1)) ∧ W2 m ρ c (Proc.devRef .tc main_v25) = Cert.Stages.norm (m ((c : Thread nD τ).loc main_arg1)) :=
  ⟨((KeepC.keep5_v25 m ρ c).trans ((KeepC.keep4_v25 m ρ c).trans ((KeepB.keep3_v25 m ρ c).trans (KeepB.keep2_v25 m ρ c)))).trans (norm1 m ρ c), (KeepB.keep2_v25 m ρ c).trans (norm1 m ρ c)⟩
theorem scale_at3 (c : Dev nD) : W3 m ρ c (Proc.devRef .tc main_v27)
    = shapeCast ⟨2, ![50000, 1]⟩ (show FVec Ideal S50000 .f32 from mulf (Cert.Stages.dis (m ((c : Thread nD τ).loc main_arg1))) (Cert.Stages.dis (m ((c : Thread nD τ).loc main_arg1)))) shapeCasts_S50000_S50000x1 :=
  ((KeepB.keep3_v27 m ρ c).trans (KeepB.keep2_v27 m ρ c)).trans (scale1 m ρ c)
theorem scale_at6 (c : Dev nD) : W6 m ρ c (Proc.devRef .tc main_v27)
    = shapeCast ⟨2, ![50000, 1]⟩ (show FVec Ideal S50000 .f32 from mulf (Cert.Stages.dis (m ((c : Thread nD τ).loc main_arg1))) (Cert.Stages.dis (m ((c : Thread nD τ).loc main_arg1)))) shapeCasts_S50000_S50000x1 :=
  ((KeepC.keep6_v27 m ρ c).trans ((KeepC.keep5_v27 m ρ c).trans ((KeepC.keep4_v27 m ρ c).trans ((KeepB.keep3_v27 m ρ c).trans (KeepB.keep2_v27 m ρ c))))).trans (scale1 m ρ c)

/-! ## The first layer -/

/-- The first projection launch leaves the reference's projection of the node features. -/
theorem proj1 (c : Dev nD) : W2 m ρ c (Proc.devRef .tc main_v28) = Cert.Stages.proj (m ((c : Thread nD τ).loc main_arg0)) (m ((c : Thread nD τ).loc main_arg3)) := by
  refine (W2_arr m ρ c 2).trans ((ProjLaunch0.final (V1 m ρ) c).trans ?_)
  show Cert.Projection.rowsTimes (N := 50000) (W1 m ρ c (Proc.devRef .tc main_arg0)) (W1 m ρ c (Proc.devRef .tc main_arg3)) = _
  rw [arg0_at1, arg3_at1]
  exact (Cert.ProjEq.proj_eq _ _).symm

/-- The stretch after it aggregates the projected features over the edges. -/
theorem agg1 (c : Dev nD) : W3 m ρ c (Proc.devRef .tc main_v41) = Cert.Stages.agg (Cert.Stages.proj (m ((c : Thread nD τ).loc main_arg0)) (m ((c : Thread nD τ).loc main_arg3))) (m ((c : Thread nD τ).loc main_arg1)) := by
  show StableHlo.after hostOps1 (W2 m ρ c) (Proc.devRef .tc main_v41) = _
  after_results_simp
  rw [(src_at m ρ c).2, (dst_at m ρ c).2, (norm_at m ρ c).2, proj1]
  rfl

theorem row42 (c : Dev nD) : W3 m ρ c (Proc.devRef .tc main_v42) = shapeCast ⟨2, ![1, 128]⟩ (m ((c : Thread nD τ).loc main_arg4)) shapeCasts_S128_S1x128 := by
  show StableHlo.after hostOps1 (W2 m ρ c) (Proc.devRef .tc main_v42) = _
  after_results_simp
  rw [arg4_at2]
  rfl
theorem row43 (c : Dev nD) : W3 m ρ c (Proc.devRef .tc main_v43) = shapeCast ⟨2, ![1, 128]⟩ (m ((c : Thread nD τ).loc main_arg5)) shapeCasts_S128_S1x128 := by
  show StableHlo.after hostOps1 (W2 m ρ c) (Proc.devRef .tc main_v43) = _
  after_results_simp
  rw [arg5_at2]
  rfl
theorem row44 (c : Dev nD) : W3 m ρ c (Proc.devRef .tc main_v44) = shapeCast ⟨2, ![1, 128]⟩ (m ((c : Thread nD τ).loc main_arg6)) shapeCasts_S128_S1x128 := by
  show StableHlo.after hostOps1 (W2 m ρ c) (Proc.devRef .tc main_v44) = _
  after_results_simp
  rw [arg6_at2]
  rfl
theorem row45 (c : Dev nD) : W3 m ρ c (Proc.devRef .tc main_v45) = shapeCast ⟨2, ![1, 128]⟩ (m ((c : Thread nD τ).loc main_arg7)) shapeCasts_S128_S1x128 := by
  show StableHlo.after hostOps1 (W2 m ρ c) (Proc.devRef .tc main_v45) = _
  after_results_simp
  rw [arg7_at2]
  rfl
theorem row46 (c : Dev nD) : W3 m ρ c (Proc.devRef .tc main_v46) = shapeCast ⟨2, ![1, 128]⟩ (m ((c : Thread nD τ).loc main_arg8)) shapeCasts_S128_S1x128 := by
  show StableHlo.after hostOps1 (W2 m ρ c) (Proc.devRef .tc main_v46) = _
  after_results_simp
  rw [arg8_at2]
  rfl

/-- The first normalise-and-clamp launch leaves the first layer's output. -/
theorem layer1 (c : Dev nD) : W4 m ρ c (Proc.devRef .tc main_v47)
    = Cert.Stages.layer (m ((c : Thread nD τ).loc main_arg0)) (m ((c : Thread nD τ).loc main_arg3)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 8).trans ((CombLaunch1.final (V3 m ρ) c).trans ?_)
  show Cert.NormClamp.whole (N := 50000) (W3 m ρ c (Proc.devRef .tc main_v41)) (W3 m ρ c (Proc.devRef .tc main_v28)) (W3 m ρ c (Proc.devRef .tc main_v27))
    (W3 m ρ c (Proc.devRef .tc main_v42)) (W3 m ρ c (Proc.devRef .tc main_v43)) (W3 m ρ c (Proc.devRef .tc main_v44)) (W3 m ρ c (Proc.devRef .tc main_v45)) (W3 m ρ c (Proc.devRef .tc main_v46)) = _
  rw [agg1, KeepB.keep3_v28, proj1, scale_at3, row42, row43, row44, row45, row46]
  unfold Cert.Stages.layer
  exact (Cert.CombineEq.combine_eq _ _ _ _ _ _ _ _ _ _).symm

/-! ## The second layer -/

/-- The second projection launch leaves the reference's projection of the first layer's output. -/
theorem proj2 (c : Dev nD) : W5 m ρ c (Proc.devRef .tc main_v48)
    = Cert.Stages.proj (Cert.Stages.layer (m ((c : Thread nD τ).loc main_arg0)) (m ((c : Thread nD τ).loc main_arg3)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (W5_arr m ρ c 2).trans ((ProjLaunch2.final (V4 m ρ) c).trans ?_)
  show Cert.Projection.rowsTimes (N := 50000) (W4 m ρ c (Proc.devRef .tc main_v47)) (W4 m ρ c (Proc.devRef .tc main_arg9)) = _
  rw [layer1, arg9_at4]
  exact (Cert.ProjEq.proj_eq _ _).symm

theorem agg2 (c : Dev nD) : W6 m ρ c (Proc.devRef .tc main_v61)
    = Cert.Stages.agg (Cert.Stages.proj (Cert.Stages.layer (m ((c : Thread nD τ).loc main_arg0)) (m ((c : Thread nD τ).loc main_arg3)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9))) (m ((c : Thread nD τ).loc main_arg1)) := by
  show StableHlo.after hostOps3 (W5 m ρ c) (Proc.devRef .tc main_v61) = _
  after_results_simp
  rw [(src_at m ρ c).1, (dst_at m ρ c).1, (norm_at m ρ c).1, proj2]
  rfl

theorem row62 (c : Dev nD) : W6 m ρ c (Proc.devRef .tc main_v62) = shapeCast ⟨2, ![1, 128]⟩ (m ((c : Thread nD τ).loc main_arg10)) shapeCasts_S128_S1x128 := by
  show StableHlo.after hostOps3 (W5 m ρ c) (Proc.devRef .tc main_v62) = _
  after_results_simp
  rw [arg10_at5]
  rfl
theorem row63 (c : Dev nD) : W6 m ρ c (Proc.devRef .tc main_v63) = shapeCast ⟨2, ![1, 128]⟩ (m ((c : Thread nD τ).loc main_arg11)) shapeCasts_S128_S1x128 := by
  show StableHlo.after hostOps3 (W5 m ρ c) (Proc.devRef .tc main_v63) = _
  after_results_simp
  rw [arg11_at5]
  rfl
theorem row64 (c : Dev nD) : W6 m ρ c (Proc.devRef .tc main_v64) = shapeCast ⟨2, ![1, 128]⟩ (m ((c : Thread nD τ).loc main_arg12)) shapeCasts_S128_S1x128 := by
  show StableHlo.after hostOps3 (W5 m ρ c) (Proc.devRef .tc main_v64) = _
  after_results_simp
  rw [arg12_at5]
  rfl
theorem row65 (c : Dev nD) : W6 m ρ c (Proc.devRef .tc main_v65) = shapeCast ⟨2, ![1, 128]⟩ (m ((c : Thread nD τ).loc main_arg13)) shapeCasts_S128_S1x128 := by
  show StableHlo.after hostOps3 (W5 m ρ c) (Proc.devRef .tc main_v65) = _
  after_results_simp
  rw [arg13_at5]
  rfl
theorem row66 (c : Dev nD) : W6 m ρ c (Proc.devRef .tc main_v66) = shapeCast ⟨2, ![1, 128]⟩ (m ((c : Thread nD τ).loc main_arg14)) shapeCasts_S128_S1x128 := by
  show StableHlo.after hostOps3 (W5 m ρ c) (Proc.devRef .tc main_v66) = _
  after_results_simp
  rw [arg14_at5]
  rfl

/-- The second normalise-and-clamp launch leaves the second layer's output. -/
theorem layer2 (c : Dev nD) : W7 m ρ c (Proc.devRef .tc main_v67)
    = Cert.Stages.layer (Cert.Stages.layer (m ((c : Thread nD τ).loc main_arg0)) (m ((c : Thread nD τ).loc main_arg3)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W7_arr m ρ c 8).trans ((CombLaunch3.final (V6 m ρ) c).trans ?_)
  show Cert.NormClamp.whole (N := 50000) (W6 m ρ c (Proc.devRef .tc main_v61)) (W6 m ρ c (Proc.devRef .tc main_v48)) (W6 m ρ c (Proc.devRef .tc main_v27))
    (W6 m ρ c (Proc.devRef .tc main_v62)) (W6 m ρ c (Proc.devRef .tc main_v63)) (W6 m ρ c (Proc.devRef .tc main_v64)) (W6 m ρ c (Proc.devRef .tc main_v65)) (W6 m ρ c (Proc.devRef .tc main_v66)) = _
  rw [agg2, KeepC.keep6_v48, proj2, scale_at6, row62, row63, row64, row65, row66]
  unfold Cert.Stages.layer
  exact (Cert.CombineEq.combine_eq _ _ _ _ _ _ _ _ _ _).symm

/-! ## The pooling and the classifier -/

/-- The result buffer after the run holds the network of the arguments. -/
theorem result_eq (c : Dev nD) : W8 m ρ c (Proc.devRef .tc main_v83)
    = Cert.Stages.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps4 (W7 m ρ c) (Proc.devRef .tc main_v83) = _
  after_results_simp
  rw [layer2, arg2_at7, arg15_at7, arg16_at7]
  rfl

end Cert.KernelIdeal.KernelNet

end
-- ==== Proof.lean ====
/-
  The certificate of a two-layer graph convolution network with mean pooling and a linear classifier, computed by four
  grid launches among host operations, against the same network computed by host operations alone.

  Both programs gather, weight and scatter-add over the edge list with the same host operations; they differ in that
  the kernel program computes each layer's dense projection as ten row blocks on the matrix unit (operands narrowed to
  bf16, accumulated from zero) where the reference has one dot_general, and fuses the self-loop term, the bias, the
  per-feature normalisation and the clamp at zero into one launch over ten row blocks where the reference has a chain of
  broadcasts and elementwise operations. On the extended reals the narrowing is the identity, a row of a product depends
  only on that row of the left operand, and the fused entry applies the same operations in the same grouping, so each
  launch leaves exactly the array the reference's step computes (ProjLaunch0/2, CombLaunch1/3, ProjEq, CombineEq); the
  rest of the two programs is the same composition of stages (Stages, RefNet, KernelNet). No algebraic law beyond
  reading arrays at an index is used, so the finiteness of the inputs is never opened.

  The three frame claims are the generated frame runs (the reference's is its generated run with the result dropped);
  the idealization rewrote nothing, so its claim is trivial.
-/
import proofs.«105856_j1056561955280_1_alg».proof.Defs
import proofs.«105856_j1056561955280_1_alg».proof.Proof.Gen.Kernel
import proofs.«105856_j1056561955280_1_alg».proof.Proof.Gen.Kernel.Skeleton
import proofs.«105856_j1056561955280_1_alg».proof.Proof.Gen.Kernel.Launch
import proofs.«105856_j1056561955280_1_alg».proof.Proof.Gen.Kernel.Points
import proofs.«105856_j1056561955280_1_alg».proof.Proof.Gen.Kernel.Frame
import proofs.«105856_j1056561955280_1_alg».proof.Proof.Gen.KernelIdeal
import proofs.«105856_j1056561955280_1_alg».proof.Proof.Gen.KernelIdeal.Skeleton
import proofs.«105856_j1056561955280_1_alg».proof.Proof.Gen.KernelIdeal.Launch
import proofs.«105856_j1056561955280_1_alg».proof.Proof.Gen.KernelIdeal.Points
import proofs.«105856_j1056561955280_1_alg».proof.Proof.Gen.KernelIdeal.Frame
import proofs.«105856_j1056561955280_1_alg».proof.Proof.Gen.ReferenceIdeal
import proofs.«105856_j1056561955280_1_alg».proof.Proof.Gen.ReferenceIdeal.Run
import proofs.«105856_j1056561955280_1_alg».proof.Proof.Gen.ReferenceIdeal.Read
import proofs.«105856_j1056561955280_1_alg».proof.Proof.Gen.Pre_finite_inputs
import proofs.«105856_j1056561955280_1_alg».proof.Proof.ResultRun
import proofs.«105856_j1056561955280_1_alg».proof.Proof.RefNet
import proofs.«105856_j1056561955280_1_alg».proof.Proof.KernelNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of Stages.lean applied to the (agreeing) arguments in their result buffers. -/
theorem algebraic : Cert.algebraic_KernelIdeal_ReferenceIdeal := by
  intro m ρ m' ρ' _ hagree
  refine ⟨fun c => Cert.Stages.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KernelNet.result_eq m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    rw [Cert.RefNet.result_eq]
    obtain ⟨h0, h1, h2, h3, h4, h5, h6, h7, h8, h9, h10, h11, h12, h13, h14, h15, h16⟩ := hagree c
    rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
